-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x768 : Shape := ⟨2, ![64, 768]⟩
abbrev S100000x128 : Shape := ⟨2, ![100000, 128]⟩
abbrev S2x600000 : Shape := ⟨2, ![2, 600000]⟩
abbrev S100000 : Shape := ⟨1, ![100000]⟩
abbrev S64 : Shape := ⟨1, ![64]⟩
abbrev S64x128 : Shape := ⟨2, ![64, 128]⟩
abbrev S16x64 : Shape := ⟨2, ![16, 64]⟩
abbrev S16 : Shape := ⟨1, ![16]⟩
abbrev S16x16 : Shape := ⟨2, ![16, 16]⟩
abbrev S_ : Shape := ⟨0, ![]⟩

class Facts : Prop where
  bcast_S_S64x768 : S_.BroadcastsInDim S64x768 (![] : Fin 0 → Fin S64x768.rank)
  reducesTo_S64x768_S_d0_1 : S64x768.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part3 {F : FTy → Type} [FloatOps F] (main_arg13 : FVec F S16 .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  main_v58

def fn_part2 {F : FTy → Type} [FloatOps F] (main_arg9 : FVec F S16x64 .f32) (main_arg10 : FVec F S16x64 .f32) (main_arg11 : FVec F S16 .f32) (main_arg12 : FVec F S16x16 .f32) (main_arg13 : FVec F S16 .f32) (main_v33 : IVec S_ 1) : IVec S_ 1 :=
  let main_v34 : FVec F S16x64 .f32 := Host.absf main_arg9
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S16x64 .f32 := Host.absf main_arg10
  let main_cst_14 : FVec F S_ .f32 := constant S_ .f32 0x7F800000#32
  let main_v40 : FVec F S16x64 .f32 := broadcastInDim S16x64 ![] bcast_S_S16x64 main_cst_14
  let main_v41 : IVec S16x64 1 := cmpf .olt main_v39 main_v40
  let main_c_15 : IVec S_ 1 := constantI S_ 1 1#1
  let main_v42 : IVec S_ 1 := (fun x v => Host.reduce IntOp.andi x v reducesTo_S16x64_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x16 .f32 := Host.absf main_arg12
  let main_cst_18 : FVec F S_ .f32 := constant S_ .f32 0x7F800000#32
  let main_v50 : FVec F S16x16 .f32 := broadcastInDim S16x16 ![] bcast_S_S16x16 main_cst_18
  fn_part3 (F := F) main_arg13 main_v48 main_v49 main_v50

def fn_part1 {F : FTy → Type} [FloatOps F] (main_arg6 : FVec F S64x128 .f32) (main_arg7 : FVec F S64x128 .f32) (main_arg8 : FVec F S64 .f32) (main_arg9 : FVec F S16x64 .f32) (main_arg10 : FVec F S16x64 .f32) (main_arg11 : FVec F S16 .f32) (main_arg12 : FVec F S16x16 .f32) (main_arg13 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S64x768 .f32) (main_arg1 : FVec F S100000x128 .f32) (main_arg2 : IVec S2x600000 32) (main_arg3 : IVec S100000 32) (main_arg4 : FVec F S64x768 .f32) (main_arg5 : FVec F S64 .f32) (main_arg6 : FVec F S64x128 .f32) (main_arg7 : FVec F S64x128 .f32) (main_arg8 : FVec F S64 .f32) (main_arg9 : FVec F S16x64 .f32) (main_arg10 : FVec F S16x64 .f32) (main_arg11 : FVec F S16 .f32) (main_arg12 : FVec F S16x16 .f32) (main_arg13 : FVec F S16 .f32) : IVec S_ 1 :=
  let main_v0 : FVec F S64x768 .f32 := Host.absf main_arg0
  let main_cst : FVec F S_ .f32 := constant S_ .f32 0x7F800000#32
  let main_v1 : FVec F S64x768 .f32 := broadcastInDim S64x768 ![] bcast_S_S64x768 main_cst
  let main_v2 : IVec S64x768 1 := cmpf .olt main_v0 main_v1
  let main_c : IVec S_ 1 := constantI S_ 1 1#1
  let main_v3 : IVec S_ 1 := (fun x v => Host.reduce IntOp.andi x v reducesTo_S64x768_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S64x768 .f32 := Host.absf main_arg4
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S64x768 : Shape := ⟨2, ![64, 768]⟩
abbrev S100000x128 : Shape := ⟨2, ![100000, 128]⟩
abbrev S2x600000 : Shape := ⟨2, ![2, 600000]⟩
abbrev S100000 : Shape := ⟨1, ![100000]⟩
abbrev S64 : Shape := ⟨1, ![64]⟩
abbrev S64x128 : Shape := ⟨2, ![64, 128]⟩
abbrev S16x64 : Shape := ⟨2, ![16, 64]⟩
abbrev S16 : Shape := ⟨1, ![16]⟩
abbrev S16x16 : Shape := ⟨2, ![16, 16]⟩
abbrev S1x64 : Shape := ⟨2, ![1, 64]⟩
abbrev S64x64 : Shape := ⟨2, ![64, 64]⟩
abbrev S768x64 : Shape := ⟨2, ![768, 64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S128x64 : Shape := ⟨2, ![128, 64]⟩
abbrev S600000x64 : Shape := ⟨2, ![600000, 64]⟩
abbrev S1x16 : Shape := ⟨2, ![1, 16]⟩
abbrev S100000x16 : Shape := ⟨2, ![100000, 16]⟩
abbrev S10000x16 : Shape := ⟨2, ![10000, 16]⟩
abbrev S64x16 : Shape := ⟨2, ![64, 16]⟩
abbrev S64x1 : Shape := ⟨2, ![64, 1]⟩
abbrev S64x80 : Shape := ⟨2, ![64, 80]⟩

abbrev nBuf : Space → Nat
  | .hbm => 96
  | .vmem => 22
  | .smem => 0
  | _ => 0

abbrev bufTy : (tb : Table) → Fin (tcTables nBuf tb) → BufTy
  | .hbm, ⟨0, _⟩ => ⟨S64x768, .f32⟩
  | .hbm, ⟨1, _⟩ => ⟨S100000x128, .f32⟩
  | .hbm, ⟨2, _⟩ => ⟨S2x600000, .i32⟩
  | .hbm, ⟨3, _⟩ => ⟨S100000, .i32⟩
  | .hbm, ⟨4, _⟩ => ⟨S64x768, .f32⟩
  | .hbm, ⟨5, _⟩ => ⟨S64, .f32⟩
  | .hbm, ⟨6, _⟩ => ⟨S64x128, .f32⟩
  | .hbm, ⟨7, _⟩ => ⟨S64x128, .f32⟩
  | .hbm, ⟨8, _⟩ => ⟨S64, .f32⟩
  | .hbm, ⟨9, _⟩ => ⟨S16x64, .f32⟩
  | .hbm, ⟨10, _⟩ => ⟨S16x64, .f32⟩
  | .hbm, ⟨11, _⟩ => ⟨S16, .f32⟩
  | .hbm, ⟨12, _⟩ => ⟨S16x16, .f32⟩
  | .hbm, ⟨13, _⟩ => ⟨S16, .f32⟩
  | .hbm, ⟨14, _⟩ => ⟨S1x64, .f32⟩
  | .hbm, ⟨15, _⟩ => ⟨S64x64, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S100000x128, .f32⟩
  | .hbm, ⟨31, _⟩ => ⟨S600000x1, .i32⟩
  | .hbm, ⟨32, _⟩ => ⟨S100000x128, .f32⟩
  | .hbm, ⟨33, _⟩ => ⟨S_, .f32⟩
  | .hbm, ⟨34, _⟩ => ⟨S600000, .f32⟩
  | .hbm, ⟨35, _⟩ => ⟨S_, .f32⟩
  | .hbm, ⟨36, _⟩ => ⟨S100000, .f32⟩
  | .hbm, ⟨37, _⟩ => ⟨S600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x64, .f32⟩
  | .hbm, ⟨46, _⟩ => ⟨S100000x64, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x64, .f32⟩
  | .hbm, ⟨56, _⟩ => ⟨S_, .f32⟩
  | .hbm, ⟨57, _⟩ => ⟨S100000x64, .f32⟩
  | .hbm, ⟨58, _⟩ => ⟨S600000x1, .i32⟩
  | .hbm, ⟨59, _⟩ => ⟨S100000x64, .f32⟩
  | .hbm, ⟨60, _⟩ => ⟨S_, .f32⟩
  | .hbm, ⟨61, _⟩ => ⟨S600000, .f32⟩
  | .hbm, ⟨62, _⟩ => ⟨S_, .f32⟩
  | .hbm, ⟨63, _⟩ => ⟨S100000, .f32⟩
  | .hbm, ⟨64, _⟩ => ⟨S600000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S1x16, .f32⟩
  | .hbm, ⟨73, _⟩ => ⟨S100000x16, .f32⟩
  | .hbm, ⟨74, _⟩ => ⟨S_, .f32⟩
  | .hbm, ⟨75, _⟩ => ⟨S64x16, .f32⟩
  | .hbm, ⟨76, _⟩ => ⟨S100000x1, .i32⟩
  | .hbm, ⟨77, _⟩ => ⟨S64x16, .f32⟩
  | .hbm, ⟨78, _⟩ => ⟨S_, .f32⟩
  | .hbm, ⟨79, _⟩ => ⟨S100000, .f32⟩
  | .hbm, ⟨80, _⟩ => ⟨S_, .f32⟩
  | .hbm, ⟨81, _⟩ => ⟨S64, .f32⟩
  | .hbm, ⟨82, _⟩ => ⟨S100000x1, .i32⟩
  | .hbm, ⟨83, _⟩ => ⟨S64, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S64x1, .f32⟩
  | .hbm, ⟨88, _⟩ => ⟨S64x16, .f32⟩
  | .hbm, ⟨89, _⟩ => ⟨S64x16, .f32⟩
  | .hbm, ⟨90, _⟩ => ⟨S16x16, .f32⟩
  | .hbm, ⟨91, _⟩ => ⟨S64x16, .f32⟩
  | .hbm, ⟨92, _⟩ => ⟨S1x16, .f32⟩
  | .hbm, ⟨93, _⟩ => ⟨S64x16, .f32⟩
  | .hbm, ⟨94, _⟩ => ⟨S64x16, .f32⟩
  | .hbm, ⟨95, _⟩ => ⟨S64x80, .f32⟩
  | .local _ .vmem, ⟨0, _⟩ => ⟨S64x768, .f32⟩
  | .local _ .vmem, ⟨1, _⟩ => ⟨S64x768, .f32⟩
  | .local _ .vmem, ⟨2, _⟩ => ⟨S1x64, .f32⟩
  | .local _ .vmem, ⟨3, _⟩ => ⟨S64x64, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S64x128, .f32⟩
  | .local _ .vmem, ⟨9, _⟩ => ⟨S64x128, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S16x64, .f32⟩
  | .local _ .vmem, ⟨18, _⟩ => ⟨S16x64, .f32⟩
  | .local _ .vmem, ⟨19, _⟩ => ⟨S1x16, .f32⟩
  | .local _ .vmem, ⟨20, _⟩ => ⟨S10000x16, .f32⟩
  | .local _ .vmem, ⟨21, _⟩ => ⟨S10000x16, .f32⟩
  | _, _ => ⟨S64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S64_S1x64 : S64.ShapeCasts S1x64
  inb_S64x768_S64x768_0_0 : ∀ a, (![0, 0] : Fin 2 → Nat) a + S64x768.size a ≤ S64x768.size a
  h_S64x768 : 0 < S64x768.numel
  transposes_S64x768_p1_0_S768x64 : S64x768.Transposes [1, 0] S768x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x64_S64x64_0_0 : ∀ a, (![0, 0] : Fin 2 → Nat) a + S64x64.size a ≤ S64x64.size a
  h_S64x64 : 0 < S64x64.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S16_S1x16 : S16.ShapeCasts S1x16
  shapeCasts_S10000x64_S10000x64 : S10000x64.ShapeCasts S10000x64
  inb_S16x64_S16x64_0_0 : ∀ a, (![0, 0] : Fin 2 → Nat) a + S16x64.size a ≤ S16x64.size a
  h_S16x64 : 0 < S16x64.numel
  transposes_S16x64_p1_0_S64x16 : S16x64.Transposes [1, 0] S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S64x16 : S_.BroadcastsInDim S64x16 (![] : Fin 0 → Fin S64x16.rank)
  bcast_S_S64 : S_.BroadcastsInDim S64 (![] : Fin 0 → Fin S64.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  transposes_S16x16_S16x16_1_0 : S16x16.Transposes [1, 0] S16x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  concatenates_S64x64_S64x16_S64x80_d1 : Shape.Concatenates [S64x64, S64x16] S64x80 1
  dot_S64x768_S768x64_S64x64_1_0_0_1_n_n_wf : DotDims.WF S64x768 S768x64 S64x64 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S10000x128_S128x64_S10000x64_1_0_0_1_n_n_wf : DotDims.WF S10000x128 S128x64 S10000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S10000x64_S64x16_S10000x16_1_0_0_1_n_n_wf : DotDims.WF S10000x64 S64x16 S10000x16 [1] [0] [0] [1] [] []
  scatter_S64x16_S100000x1_S100000x16_1_0_0_1_wf : ScatterDims.WF S64x16 S100000x1 S100000x16 [1] [0] [0] 1
  scatter_S64_S100000x1_S100000_n_0_0_1_wf : ScatterDims.WF S64 S100000x1 S100000 [] [0] [0] 1
  dot_S64x16_S16x16_S64x16_1_0_0_1_n_n_wf : DotDims.WF S64x16 S16x16 S64x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x768.size a ≤ S64x768.size a
  hwx0_0 : ∀ i : grid0.Coords, EltTy.bits .f32 = 32 ∨ (Rect.block (s := S64x768) S64x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x64.size a ≤ S16x64.size a
  hwx2_2 : ∀ i : grid2.Coords, EltTy.bits .f32 = 32 ∨ (Rect.block (s := S16x64) S16x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x64.size a ≤ S16x64.size a
  hwx2_3 : ∀ i : grid2.Coords, EltTy.bits .f32 = 32 ∨ (Rect.block (s := S16x64) S16x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x16.size a ≤ S100000x16.size a
  hwx2_5 : ∀ i : grid2.Coords, EltTy.bits .f32 = 32 ∨ (Rect.block (s := S100000x16) S10000x16.size (cc2_transform_5 i) (hinb2_5 i)).WholeWords (EltTy.packing .f32)

variable [Facts₀]

def dot_S64x768_S768x64_S64x64_1_0_0_1_n_n : DotDims S64x768 S768x64 S64x64 where
  lhsContracting := [1]
  rhsContracting := [0]
  lhsNonContracting := [0]
  rhsNonContracting := [1]
  lhsBatch := []
  rhsBatch := []
  wf := dot_S64x768_S768x64_S64x64_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def scatter_S64x16_S100000x1_S100000x16_1_0_0_1 : ScatterDims S64x16 S100000x1 S100000x16 where
  updateWindowDims := [1]
  insertedWindowDims := [0]
  scatterDimsToOperandDims := [0]
  indexVectorDim := 1
  wf := scatter_S64x16_S100000x1_S100000x16_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x16_S16x16_S64x16_1_0_0_1_n_n : DotDims S64x16 S16x16 S64x16 where
  lhsContracting := [1]
  rhsContracting := [0]
  lhsNonContracting := [0]
  rhsNonContracting := [1]
  lhsBatch := []
  rhsBatch := []
  wf := dot_S64x16_S16x16_S64x16_1_0_0_1_n_n_wf

abbrev win0_0 : Pipeline.Window sig grid0 :=
  Pipeline.Window.ofSpec (Memref.whole main_arg0) S64x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S16x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S16x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S10000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S64x768 : Shape := ⟨2, ![64, 768]⟩
abbrev S100000x128 : Shape := ⟨2, ![100000, 128]⟩
abbrev S2x600000 : Shape := ⟨2, ![2, 600000]⟩
abbrev S100000 : Shape := ⟨1, ![100000]⟩
abbrev S64 : Shape := ⟨1, ![64]⟩
abbrev S64x128 : Shape := ⟨2, ![64, 128]⟩
abbrev S16x64 : Shape := ⟨2, ![16, 64]⟩
abbrev S16 : Shape := ⟨1, ![16]⟩
abbrev S16x16 : Shape := ⟨2, ![16, 16]⟩
abbrev S768x64 : Shape := ⟨2, ![768, 64]⟩
abbrev S64x64 : Shape := ⟨2, ![64, 64]⟩
abbrev S1x64 : Shape := ⟨2, ![1, 64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S128x64 : Shape := ⟨2, ![128, 64]⟩
abbrev S100000x64 : Shape := ⟨2, ![100000, 64]⟩
abbrev S600000x64 : Shape := ⟨2, ![600000, 64]⟩
abbrev S64x16 : Shape := ⟨2, ![64, 16]⟩
abbrev S100000x16 : Shape := ⟨2, ![100000, 16]⟩
abbrev S1x16 : Shape := ⟨2, ![1, 16]⟩
abbrev S64x1 : Shape := ⟨2, ![64, 1]⟩
abbrev S64x80 : Shape := ⟨2, ![64, 80]⟩

abbrev nBuf : Space → Nat
  | .hbm => 114
  | .vmem => 0
  | .smem => 0
  | _ => 0

abbrev bufTy : (tb : Table) → Fin (tcTables nBuf tb) → BufTy
  | .hbm, ⟨0, _⟩ => ⟨S64x768, .f32⟩
  | .hbm, ⟨1, _⟩ => ⟨S100000x128, .f32⟩
  | .hbm, ⟨2, _⟩ => ⟨S2x600000, .i32⟩
  | .hbm, ⟨3, _⟩ => ⟨S100000, .i32⟩
  | .hbm, ⟨4, _⟩ => ⟨S64x768, .f32⟩
  | .hbm, ⟨5, _⟩ => ⟨S64, .f32⟩
  | .hbm, ⟨6, _⟩ => ⟨S64x128, .f32⟩
  | .hbm, ⟨7, _⟩ => ⟨S64x128, .f32⟩
  | .hbm, ⟨8, _⟩ => ⟨S64, .f32⟩
  | .hbm, ⟨9, _⟩ => ⟨S16x64, .f32⟩
  | .hbm, ⟨10, _⟩ => ⟨S16x64, .f32⟩
  | .hbm, ⟨11, _⟩ => ⟨S16, .f32⟩
  | .hbm, ⟨12, _⟩ => ⟨S16x16, .f32⟩
  | .hbm, ⟨13, _⟩ => ⟨S16, .f32⟩
  | .hbm, ⟨14, _⟩ => ⟨S768x64, .f32⟩
  | .hbm, ⟨15, _⟩ => ⟨S64x64, .f32⟩
  | .hbm, ⟨16, _⟩ => ⟨S1x64, .f32⟩
  | .hbm, ⟨17, _⟩ => ⟨S64x64, .f32⟩
  | .hbm, ⟨18, _⟩ => ⟨S64x64, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .f32⟩
  | .hbm, ⟨33, _⟩ => ⟨S100000x128, .f32⟩
  | .hbm, ⟨34, _⟩ => ⟨S600000x1, .i32⟩
  | .hbm, ⟨35, _⟩ => ⟨S100000x128, .f32⟩
  | .hbm, ⟨36, _⟩ => ⟨S_, .f32⟩
  | .hbm, ⟨37, _⟩ => ⟨S600000, .f32⟩
  | .hbm, ⟨38, _⟩ => ⟨S_, .f32⟩
  | .hbm, ⟨39, _⟩ => ⟨S100000, .f32⟩
  | .hbm, ⟨40, _⟩ => ⟨S600000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S128x64, .f32⟩
  | .hbm, ⟨49, _⟩ => ⟨S100000x64, .f32⟩
  | .hbm, ⟨50, _⟩ => ⟨S128x64, .f32⟩
  | .hbm, ⟨51, _⟩ => ⟨S100000x64, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x64, .f32⟩
  | .hbm, ⟨68, _⟩ => ⟨S_, .f32⟩
  | .hbm, ⟨69, _⟩ => ⟨S100000x64, .f32⟩
  | .hbm, ⟨70, _⟩ => ⟨S600000x1, .i32⟩
  | .hbm, ⟨71, _⟩ => ⟨S100000x64, .f32⟩
  | .hbm, ⟨72, _⟩ => ⟨S_, .f32⟩
  | .hbm, ⟨73, _⟩ => ⟨S600000, .f32⟩
  | .hbm, ⟨74, _⟩ => ⟨S_, .f32⟩
  | .hbm, ⟨75, _⟩ => ⟨S100000, .f32⟩
  | .hbm, ⟨76, _⟩ => ⟨S600000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S64x16, .f32⟩
  | .hbm, ⟨85, _⟩ => ⟨S100000x16, .f32⟩
  | .hbm, ⟨86, _⟩ => ⟨S64x16, .f32⟩
  | .hbm, ⟨87, _⟩ => ⟨S100000x16, .f32⟩
  | .hbm, ⟨88, _⟩ => ⟨S100000x16, .f32⟩
  | .hbm, ⟨89, _⟩ => ⟨S1x16, .f32⟩
  | .hbm, ⟨90, _⟩ => ⟨S100000x16, .f32⟩
  | .hbm, ⟨91, _⟩ => ⟨S100000x16, .f32⟩
  | .hbm, ⟨92, _⟩ => ⟨S_, .f32⟩
  | .hbm, ⟨93, _⟩ => ⟨S64x16, .f32⟩
  | .hbm, ⟨94, _⟩ => ⟨S100000x1, .i32⟩
  | .hbm, ⟨95, _⟩ => ⟨S64x16, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S64, .f32⟩
  | .hbm, ⟨100, _⟩ => ⟨S100000x1, .i32⟩
  | .hbm, ⟨101, _⟩ => ⟨S64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64x1, .f32⟩
  | .hbm, ⟨106, _⟩ => ⟨S64x16, .f32⟩
  | .hbm, ⟨107, _⟩ => ⟨S64x16, .f32⟩
  | .hbm, ⟨108, _⟩ => ⟨S16x16, .f32⟩
  | .hbm, ⟨109, _⟩ => ⟨S64x16, .f32⟩
  | .hbm, ⟨110, _⟩ => ⟨S1x16, .f32⟩
  | .hbm, ⟨111, _⟩ => ⟨S64x16, .f32⟩
  | .hbm, ⟨112, _⟩ => ⟨S64x16, .f32⟩
  | .hbm, ⟨113, _⟩ => ⟨S64x80, .f32⟩
  | _, _ => ⟨S64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call0_cst : Ref sig .tc := ⟨.hbm, 56, rfl⟩
abbrev main_call0_v0 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_c_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_11 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]

class Facts₀ : Prop where
  transposes_S64x768_S768x64_1_0 : S64x768.Transposes [1, 0] S768x64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S64x16 : S_.BroadcastsInDim S64x16 (![] : Fin 0 → Fin S64x16.rank)
  bcast_S_S64 : S_.BroadcastsInDim S64 (![] : Fin 0 → Fin S64.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  transposes_S16x16_S16x16_1_0 : S16x16.Transposes [1, 0] S16x16
  bcast_S1x16_S64x16_0_1 : S1x16.BroadcastsInDim S64x16 (![0, 1] : Fin 2 → Fin S64x16.rank)
  concatenates_S64x64_S64x16_S64x80_d1 : Shape.Concatenates [S64x64, S64x16] S64x80 1
  dot_S64x768_S768x64_S64x64_1_0_0_1_n_n_wf : DotDims.WF S64x768 S768x64 S64x64 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x64_S100000x64_1_0_0_1_n_n_wf : DotDims.WF S100000x128 S128x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S100000x64_S64x16_S100000x16_1_0_0_1_n_n_wf : DotDims.WF S100000x64 S64x16 S100000x16 [1] [0] [0] [1] [] []
  scatter_S64x16_S100000x1_S100000x16_1_0_0_1_wf : ScatterDims.WF S64x16 S100000x1 S100000x16 [1] [0] [0] 1
  scatter_S64_S100000x1_S100000_n_0_0_1_wf : ScatterDims.WF S64 S100000x1 S100000 [] [0] [0] 1
  dot_S64x16_S16x16_S64x16_1_0_0_1_n_n_wf : DotDims.WF S64x16 S16x16 S64x16 [1] [0] [0] [1] [] []

variable [Facts₀]

def dot_S64x768_S768x64_S64x64_1_0_0_1_n_n : DotDims S64x768 S768x64 S64x64 where
  lhsContracting := [1]
  rhsContracting := [0]
  lhsNonContracting := [0]
  rhsNonContracting := [1]
  lhsBatch := []
  rhsBatch := []
  wf := dot_S64x768_S768x64_S64x64_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def scatter_S64x16_S100000x1_S100000x16_1_0_0_1 : ScatterDims S64x16 S100000x1 S100000x16 where
  updateWindowDims := [1]
  insertedWindowDims := [0]
  scatterDimsToOperandDims := [0]
  indexVectorDim := 1
  wf := scatter_S64x16_S100000x1_S100000x16_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x16_S16x16_S64x16_1_0_0_1_n_n : DotDims S64x16 S16x16 S64x16 where
  lhsContracting := [1]
  rhsContracting := [0]
  lhsNonContracting := [0]
  rhsNonContracting := [1]
  lhsBatch := []
  rhsBatch := []
  wf := dot_S64x16_S16x16_S64x16_1_0_0_1_n_n_wf

class Facts : Prop extends Facts₀ where

variable [Facts]
-- ==== Proof.KRun.lean ====
/-
  The idealized kernel program's run, with every unscoped buffer read at the end.

  @main is seven segments: four stretches of host operations around three pallas_calls. The buffer contents at each
  segment boundary are the fold `Gen.W0 … Gen.W7` (a host stretch applies its operations; a pallas_call replaces its
  arrays by what its write-backs leave). Every weakly fair execution terminates with each unscoped buffer holding the
  last boundary's contents `W7`; in particular the result buffer and the fourteen argument buffers.
-/
import proofs.«155568_j3470333575208_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The same run with the result buffer and the arguments named: the result at `W7`'s contents, each argument as
    launched (no host operation and no pallas_call writes an argument). -/
theorem run : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)
    (run_all m ρ)

end Cert.KernelIdeal.Whole

end
-- ==== Proof.Stretch.lean ====
/-
  The host stretches of the idealized kernel program, read from ANY buffer contents W they start from.

  Between the pallas_calls the kernel program runs the same host operations as the reference: the source and
  destination rows of the edge list, the neighbour mean (gather, scatter-add, count, clamp the count at 1, divide),
  the graph mean over the batch ids, the last 16×16 linear map and the concatenation. Each stretch's result buffer is
  therefore the reference's stage function of the same operands, and every buffer the stretch does not write keeps
  its contents. The bias vectors reach the pallas_calls reshaped [d] → [1, d]: entry (0, q) of the row is entry q.
-/
import proofs.«155568_j3470333575208_1_alg».proof.Proof.Gen.KernelIdeal.Launch
import proofs.«155568_j3470333575208_1_alg».proof.Proof.Gen.ReferenceIdeal.Read
import Idealize.ShloMosaic.Lib.StableHlo.Run
import Idealize.ShloMosaic.Lib.ValueIdx
import Idealize.ShloMosaic.Lib.ValueLayout

set_option maxRecDepth 16384

noncomputable section

namespace Cert.KernelIdeal.Stretch

open Cert.KernelIdeal Cert.KernelIdeal.Gen Idealize.ShloMosaic Idealize.ShloMosaic.TcCoe Idealize.ShloMosaic.StableHlo
open Idealize.ShloMosaic.ValueIdx

variable (W : Valuation τ sig (Elt Ideal))

/-! ## Before the first call: the bias row -/

theorem s0_bias (q : Fin 64) :
    (after (hostOps0 (F := Ideal)) W (Proc.devRef .tc main_v0) : FVec Ideal S1x64 .f32) (ix2 (0 : Fin 1) q)
      = (W (Proc.devRef .tc main_arg5) : FVec Ideal S64 .f32) (ix1 q) := by
  after_results
  exact shapeCast_a_1a_apply (W (Proc.devRef .tc main_arg5) : FVec Ideal S64 .f32) shapeCasts_S64_S1x64 (0 : Fin 1) q

theorem s0_arg0 : after (hostOps0 (F := Ideal)) W (Proc.devRef .tc main_arg0) = W (Proc.devRef .tc main_arg0) := by after_results
theorem s0_arg1 : after (hostOps0 (F := Ideal)) W (Proc.devRef .tc main_arg1) = W (Proc.devRef .tc main_arg1) := by after_results
theorem s0_arg2 : after (hostOps0 (F := Ideal)) W (Proc.devRef .tc main_arg2) = W (Proc.devRef .tc main_arg2) := by after_results
theorem s0_arg3 : after (hostOps0 (F := Ideal)) W (Proc.devRef .tc main_arg3) = W (Proc.devRef .tc main_arg3) := by after_results
theorem s0_arg4 : after (hostOps0 (F := Ideal)) W (Proc.devRef .tc main_arg4) = W (Proc.devRef .tc main_arg4) := by after_results
theorem s0_arg6 : after (hostOps0 (F := Ideal)) W (Proc.devRef .tc main_arg6) = W (Proc.devRef .tc main_arg6) := by after_results
theorem s0_arg7 : after (hostOps0 (F := Ideal)) W (Proc.devRef .tc main_arg7) = W (Proc.devRef .tc main_arg7) := by after_results
theorem s0_arg8 : after (hostOps0 (F := Ideal)) W (Proc.devRef .tc main_arg8) = W (Proc.devRef .tc main_arg8) := by after_results
theorem s0_arg9 : after (hostOps0 (F := Ideal)) W (Proc.devRef .tc main_arg9) = W (Proc.devRef .tc main_arg9) := by after_results
theorem s0_arg10 : after (hostOps0 (F := Ideal)) W (Proc.devRef .tc main_arg10) = W (Proc.devRef .tc main_arg10) := by after_results
theorem s0_arg11 : after (hostOps0 (F := Ideal)) W (Proc.devRef .tc main_arg11) = W (Proc.devRef .tc main_arg11) := by after_results
theorem s0_arg12 : after (hostOps0 (F := Ideal)) W (Proc.devRef .tc main_arg12) = W (Proc.devRef .tc main_arg12) := by after_results
theorem s0_arg13 : after (hostOps0 (F := Ideal)) W (Proc.devRef .tc main_arg13) = W (Proc.devRef .tc main_arg13) := by after_results

/-! ## Between the first and the second call: the edge rows and the first neighbour mean -/

/-- The neighbour mean of the node features is the reference's. -/
theorem s1_mean (x1 : (⟨S100000x128, .f32⟩ : BufTy).Contents (Elt Ideal)) (x2 : (⟨S2x600000, .i32⟩ : BufTy).Contents (Elt Ideal))
    (h1 : W (Proc.devRef .tc main_arg1) = x1) (h2 : W (Proc.devRef .tc main_arg2) = x2) :
    after (hostOps1 (F := Ideal)) W (Proc.devRef .tc main_v24) = Cert.ReferenceIdeal.Read.val_main_v27 (F := Ideal) x1 x2 := by
  subst h1 h2
  after_results_simp
  rfl

/-- The source row of the edge list. -/
theorem s1_src (x2 : (⟨S2x600000, .i32⟩ : BufTy).Contents (Elt Ideal)) (h2 : W (Proc.devRef .tc main_arg2) = x2) :
    after (hostOps1 (F := Ideal)) W (Proc.devRef .tc main_v3) = Cert.ReferenceIdeal.Read.val_main_v6 (F := Ideal) x2 := by
  subst h2
  after_results_simp
  rfl

/-- The destination row of the edge list. -/
theorem s1_dst (x2 : (⟨S2x600000, .i32⟩ : BufTy).Contents (Elt Ideal)) (h2 : W (Proc.devRef .tc main_arg2) = x2) :
    after (hostOps1 (F := Ideal)) W (Proc.devRef .tc main_v5) = Cert.ReferenceIdeal.Read.val_main_v8 (F := Ideal) x2 := by
  subst h2
  after_results_simp
  rfl

theorem s1_bias (q : Fin 64) :
    (after (hostOps1 (F := Ideal)) W (Proc.devRef .tc main_v25) : FVec Ideal S1x64 .f32) (ix2 (0 : Fin 1) q)
      = (W (Proc.devRef .tc main_arg8) : FVec Ideal S64 .f32) (ix1 q) := by
  after_results_simp
  exact shapeCast_a_1a_apply (W (Proc.devRef .tc main_arg8) : FVec Ideal S64 .f32) shapeCasts_S64_S1x64 (0 : Fin 1) q

theorem s1_v1 : after (hostOps1 (F := Ideal)) W (Proc.devRef .tc main_v1) = W (Proc.devRef .tc main_v1) := by after_results_simp
theorem s1_arg1 : after (hostOps1 (F := Ideal)) W (Proc.devRef .tc main_arg1) = W (Proc.devRef .tc main_arg1) := by after_results_simp
theorem s1_arg3 : after (hostOps1 (F := Ideal)) W (Proc.devRef .tc main_arg3) = W (Proc.devRef .tc main_arg3) := by after_results_simp
theorem s1_arg6 : after (hostOps1 (F := Ideal)) W (Proc.devRef .tc main_arg6) = W (Proc.devRef .tc main_arg6) := by after_results_simp
theorem s1_arg7 : after (hostOps1 (F := Ideal)) W (Proc.devRef .tc main_arg7) = W (Proc.devRef .tc main_arg7) := by after_results_simp
theorem s1_arg9 : after (hostOps1 (F := Ideal)) W (Proc.devRef .tc main_arg9) = W (Proc.devRef .tc main_arg9) := by after_results_simp
theorem s1_arg10 : after (hostOps1 (F := Ideal)) W (Proc.devRef .tc main_arg10) = W (Proc.devRef .tc main_arg10) := by after_results_simp
theorem s1_arg11 : after (hostOps1 (F := Ideal)) W (Proc.devRef .tc main_arg11) = W (Proc.devRef .tc main_arg11) := by after_results_simp
theorem s1_arg12 : after (hostOps1 (F := Ideal)) W (Proc.devRef .tc main_arg12) = W (Proc.devRef .tc main_arg12) := by after_results_simp
theorem s1_arg13 : after (hostOps1 (F := Ideal)) W (Proc.devRef .tc main_arg13) = W (Proc.devRef .tc main_arg13) := by after_results_simp

/-! ## Between the second and the third call: the second neighbour mean, of the first layer's output -/

/-- The neighbour mean of the first layer's output is the reference's, once that output and the edge rows are. -/
theorem s2_mean (x1 : (⟨S100000x128, .f32⟩ : BufTy).Contents (Elt Ideal)) (x2 : (⟨S2x600000, .i32⟩ : BufTy).Contents (Elt Ideal))
    (x6 x7 : (⟨S64x128, .f32⟩ : BufTy).Contents (Elt Ideal)) (x8 : (⟨S64, .f32⟩ : BufTy).Contents (Elt Ideal))
    (hh : W (Proc.devRef .tc main_v26) = Cert.ReferenceIdeal.Read.val_main_v36 (F := Ideal) x1 x2 x6 x7 x8)
    (hs : W (Proc.devRef .tc main_v3) = Cert.ReferenceIdeal.Read.val_main_v6 (F := Ideal) x2)
    (hd : W (Proc.devRef .tc main_v5) = Cert.ReferenceIdeal.Read.val_main_v8 (F := Ideal) x2) :
    after (hostOps2 (F := Ideal)) W (Proc.devRef .tc main_v45) = Cert.ReferenceIdeal.Read.val_main_v55 (F := Ideal) x1 x2 x6 x7 x8 := by
  after_results_simp
  rw [hh, hs, hd]
  rfl

theorem s2_bias (q : Fin 16) :
    (after (hostOps2 (F := Ideal)) W (Proc.devRef .tc main_v46) : FVec Ideal S1x16 .f32) (ix2 (0 : Fin 1) q)
      = (W (Proc.devRef .tc main_arg11) : FVec Ideal S16 .f32) (ix1 q) := by
  after_results_simp
  exact shapeCast_a_1a_apply (W (Proc.devRef .tc main_arg11) : FVec Ideal S16 .f32) shapeCasts_S16_S1x16 (0 : Fin 1) q

theorem s2_v1 : after (hostOps2 (F := Ideal)) W (Proc.devRef .tc main_v1) = W (Proc.devRef .tc main_v1) := by after_results_simp
theorem s2_v26 : after (hostOps2 (F := Ideal)) W (Proc.devRef .tc main_v26) = W (Proc.devRef .tc main_v26) := by after_results_simp
theorem s2_arg3 : after (hostOps2 (F := Ideal)) W (Proc.devRef .tc main_arg3) = W (Proc.devRef .tc main_arg3) := by after_results_simp
theorem s2_arg9 : after (hostOps2 (F := Ideal)) W (Proc.devRef .tc main_arg9) = W (Proc.devRef .tc main_arg9) := by after_results_simp
theorem s2_arg10 : after (hostOps2 (F := Ideal)) W (Proc.devRef .tc main_arg10) = W (Proc.devRef .tc main_arg10) := by after_results_simp
theorem s2_arg12 : after (hostOps2 (F := Ideal)) W (Proc.devRef .tc main_arg12) = W (Proc.devRef .tc main_arg12) := by after_results_simp
theorem s2_arg13 : after (hostOps2 (F := Ideal)) W (Proc.devRef .tc main_arg13) = W (Proc.devRef .tc main_arg13) := by after_results_simp

/-! ## After the third call: the graph mean, the last linear map, the concatenation -/

/-- Two concatenations of two pieces are equal when the pieces are. -/
theorem concat2_congr {α : Type} {t s₁ s₂ : Shape} (a : Fin t.rank) {u₁ v₁ : s₁.Idx → α} {u₂ v₂ : s₂.Idx → α}
    (h : Shape.Concatenates [s₁, s₂] t a) (h' : Shape.Concatenates [s₁, s₂] t a) (e₁ : u₁ = v₁) (e₂ : u₂ = v₂) :
    concatenate t a [⟨s₁, u₁⟩, ⟨s₂, u₂⟩] h = concatenate t a [⟨s₁, v₁⟩, ⟨s₂, v₂⟩] h' := by
  subst e₁ e₂; rfl

/-- The program's result is the reference's, once the two pallas_call outputs it reads are. -/
theorem s3_out (x0 : (⟨S64x768, .f32⟩ : BufTy).Contents (Elt Ideal)) (x1 : (⟨S100000x128, .f32⟩ : BufTy).Contents (Elt Ideal))
    (x2 : (⟨S2x600000, .i32⟩ : BufTy).Contents (Elt Ideal)) (x3 : (⟨S100000, .i32⟩ : BufTy).Contents (Elt Ideal))
    (x4 : (⟨S64x768, .f32⟩ : BufTy).Contents (Elt Ideal)) (x5 : (⟨S64, .f32⟩ : BufTy).Contents (Elt Ideal))
    (x6 x7 : (⟨S64x128, .f32⟩ : BufTy).Contents (Elt Ideal)) (x8 : (⟨S64, .f32⟩ : BufTy).Contents (Elt Ideal))
    (x9 x10 : (⟨S16x64, .f32⟩ : BufTy).Contents (Elt Ideal)) (x11 : (⟨S16, .f32⟩ : BufTy).Contents (Elt Ideal))
    (x12 : (⟨S16x16, .f32⟩ : BufTy).Contents (Elt Ideal)) (x13 : (⟨S16, .f32⟩ : BufTy).Contents (Elt Ideal))
    (hl : W (Proc.devRef .tc main_v1) = Cert.ReferenceIdeal.Read.val_main_v4 (F := Ideal) x0 x4 x5)
    (hh : W (Proc.devRef .tc main_v47) = Cert.ReferenceIdeal.Read.val_main_v63 (F := Ideal) x1 x2 x6 x7 x8 x9 x10 x11)
    (h3 : W (Proc.devRef .tc main_arg3) = x3) (h12 : W (Proc.devRef .tc main_arg12) = x12) (h13 : W (Proc.devRef .tc main_arg13) = x13) :
    after (hostOps3 (F := Ideal)) W (Proc.devRef .tc main_v65)
      = Cert.ReferenceIdeal.Read.val_main_v81 (F := Ideal) x0 x1 x2 x3 x4 x5 x6 x7 x8 x9 x10 x11 x12 x13 := by
  subst h3 h12 h13
  after_results_simp
  unfold Cert.ReferenceIdeal.Read.val_main_v81
  refine concat2_congr _ _ _ ?_ ?_
  · after_results_simp
    exact hl
  · after_results_simp
    rw [hh]
    rfl

end Cert.KernelIdeal.Stretch

end
-- ==== Proof.Pay.lean ====
/-
  The three kernel bodies' arithmetic read at one entry, over the extended reals.

  Each body forms  A · Wlᵀ (+ X · Wrᵀ) + b  (and, in the first graph layer, the maximum with 0) on a row block:
  a matrix product with a transposed weight is, at entry (p, q), the inner product of row p of the block with row q
  of the weight; the bias row [1, d] broadcast over the rows contributes its entry q.
-/
import proofs.«155568_j3470333575208_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

theorem mm0_apply_l0 (p : Fin 64) (q : Fin 64) (c : dot_S64x768_S768x64_S64x64_1_0_0_1_n_n.contr.Idx) :
    (dot_S64x768_S768x64_S64x64_1_0_0_1_n_n.lhsIdx (ix2 p q) c 0).val = p.val := by
  unfold DotDims.lhsIdx
  rw [dif_neg (show ¬(0 : Fin S64x768.rank) ∈ dot_S64x768_S768x64_S64x64_1_0_0_1_n_n.lhsBatch by decide), dif_pos (show (0 : Fin S64x768.rank) ∈ dot_S64x768_S768x64_S64x64_1_0_0_1_n_n.lhsNonContracting by decide)]
  rfl
theorem mm0_apply_r1 (p : Fin 64) (q : Fin 64) (c : dot_S64x768_S768x64_S64x64_1_0_0_1_n_n.contr.Idx) :
    (dot_S64x768_S768x64_S64x64_1_0_0_1_n_n.rhsIdx (ix2 p q) c 1).val = q.val := by
  unfold DotDims.rhsIdx
  rw [dif_neg (show ¬(1 : Fin S768x64.rank) ∈ dot_S64x768_S768x64_S64x64_1_0_0_1_n_n.rhsBatch by decide), dif_pos (show (1 : Fin S768x64.rank) ∈ dot_S64x768_S768x64_S64x64_1_0_0_1_n_n.rhsNonContracting by decide)]
  rfl

/-- A [64, 768] block times the transpose of a [64, 768] weight, into a zero accumulator: entry (p, q) is the inner
    product of row p of the block with row q of the weight. -/
theorem mm0_apply (a : FVec Ideal S64x768 .f32) (w : FVec Ideal S64x768 .f32) (p : Fin 64) (q : Fin 64) :
    matmul dot_S64x768_S768x64_S64x64_1_0_0_1_n_n none a (transpose S768x64 [1, 0] w transposes_S64x768_p1_0_S768x64) (constant S64x64 .f32 0x00000000#32) (ix2 p q)
      = ∑ k : Fin 768, a (ix2 p k) * w (ix2 q k) := by
  simp only [matmul]
  rw [Ideal.matmul_constant_zero_apply, ← Equiv.sum_comp (contrEquiv1 dot_S64x768_S768x64_S64x64_1_0_0_1_n_n 768 rfl rfl).symm]
  refine Finset.sum_congr rfl fun k _ => ?_
  have hk := contrEquiv1_symm_val dot_S64x768_S768x64_S64x64_1_0_0_1_n_n 768 rfl rfl k
  have el : dot_S64x768_S768x64_S64x64_1_0_0_1_n_n.lhsIdx (ix2 p q) ((contrEquiv1 dot_S64x768_S768x64_S64x64_1_0_0_1_n_n 768 rfl rfl).symm k) = ix2 p k := funext fun a => Fin.ext (by
    match a with
    | ⟨0, _⟩ => exact mm0_apply_l0 p q _
    | ⟨1, _⟩ => exact (dot_S64x768_S768x64_S64x64_1_0_0_1_n_n.lhsIdx_val_of_single rfl _ _).trans hk)
  have er : dot_S64x768_S768x64_S64x64_1_0_0_1_n_n.rhsIdx (ix2 p q) ((contrEquiv1 dot_S64x768_S768x64_S64x64_1_0_0_1_n_n 768 rfl rfl).symm k) = ix2 k q := funext fun a => Fin.ext (by
    match a with
    | ⟨0, _⟩ => exact (dot_S64x768_S768x64_S64x64_1_0_0_1_n_n.rhsIdx_val_of_single rfl _ _).trans hk
    | ⟨1, _⟩ => exact mm0_apply_r1 p q _)
  rw [el, er, transpose_ix2_apply]

theorem mm1_apply_l0 (p : Fin 10000) (q : Fin 64) (c : dot_S10000x128_S128x64_S10000x64_1_0_0_1_n_n.contr.Idx) :
    (dot_S10000x128_S128x64_S10000x64_1_0_0_1_n_n.lhsIdx (ix2 p q) c 0).val = p.val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem mm1_apply_r1 (p : Fin 10000) (q : Fin 64) (c : dot_S10000x128_S128x64_S10000x64_1_0_0_1_n_n.contr.Idx) :
    (dot_S10000x128_S128x64_S10000x64_1_0_0_1_n_n.rhsIdx (ix2 p q) c 1).val = q.val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A [10000, 128] block times the transpose of a [64, 128] weight, into a zero accumulator: entry (p, q) is the inner
    product of row p of the block with row q of the weight. -/
theorem mm1_apply (a : FVec Ideal S10000x128 .f32) (w : FVec Ideal S64x128 .f32) (p : Fin 10000) (q : Fin 64) :
    matmul dot_S10000x128_S128x64_S10000x64_1_0_0_1_n_n none a (transpose S128x64 [1, 0] w transposes_S64x128_p1_0_S128x64) (constant S10000x64 .f32 0x00000000#32) (ix2 p q)
      = ∑ k : Fin 128, a (ix2 p k) * w (ix2 q k) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact mm1_apply_l0 p q _
    | ⟨1, _⟩ => exact (dot_S10000x128_S128x64_S10000x64_1_0_0_1_n_n.lhsIdx_val_of_single rfl _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (dot_S10000x128_S128x64_S10000x64_1_0_0_1_n_n.rhsIdx_val_of_single rfl _ _).trans hk
    | ⟨1, _⟩ => exact mm1_apply_r1 p q _)
  rw [el, er, transpose_ix2_apply]

theorem mm2_apply_l0 (p : Fin 10000) (q : Fin 16) (c : dot_S10000x64_S64x16_S10000x16_1_0_0_1_n_n.contr.Idx) :
    (dot_S10000x64_S64x16_S10000x16_1_0_0_1_n_n.lhsIdx (ix2 p q) c 0).val = p.val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem mm2_apply_r1 (p : Fin 10000) (q : Fin 16) (c : dot_S10000x64_S64x16_S10000x16_1_0_0_1_n_n.contr.Idx) :
    (dot_S10000x64_S64x16_S10000x16_1_0_0_1_n_n.rhsIdx (ix2 p q) c 1).val = q.val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- A [10000, 64] block times the transpose of a [16, 64] weight, into a zero accumulator: entry (p, q) is the inner
    product of row p of the block with row q of the weight. -/
theorem mm2_apply (a : FVec Ideal S10000x64 .f32) (w : FVec Ideal S16x64 .f32) (p : Fin 10000) (q : Fin 16) :
    matmul dot_S10000x64_S64x16_S10000x16_1_0_0_1_n_n none a (transpose S64x16 [1, 0] w transposes_S16x64_p1_0_S64x16) (constant S10000x16 .f32 0x00000000#32) (ix2 p q)
      = ∑ k : Fin 64, a (ix2 p k) * w (ix2 q k) := by
  simp only [matmul]
  rw [Ideal.matmul_constant_zero_apply, ← Equiv.sum_comp (contrEquiv1 dot_S10000x64_S64x16_S10000x16_1_0_0_1_n_n 64 rfl rfl).symm]
  refine Finset.sum_congr rfl fun k _ => ?_
  have hk := contrEquiv1_symm_val dot_S10000x64_S64x16_S10000x16_1_0_0_1_n_n 64 rfl rfl k
  have el : dot_S10000x64_S64x16_S10000x16_1_0_0_1_n_n.lhsIdx (ix2 p q) ((contrEquiv1 dot_S10000x64_S64x16_S10000x16_1_0_0_1_n_n 64 rfl rfl).symm k) = ix2 p k := funext fun a => Fin.ext (by
    match a with
    | ⟨0, _⟩ => exact mm2_apply_l0 p q _
    | ⟨1, _⟩ => exact (dot_S10000x64_S64x16_S10000x16_1_0_0_1_n_n.lhsIdx_val_of_single rfl _ _).trans hk)
  have er : dot_S10000x64_S64x16_S10000x16_1_0_0_1_n_n.rhsIdx (ix2 p q) ((contrEquiv1 dot_S10000x64_S64x16_S10000x16_1_0_0_1_n_n 64 rfl rfl).symm k) = ix2 k q := funext fun a => Fin.ext (by
    match a with
    | ⟨0, _⟩ => exact (dot_S10000x64_S64x16_S10000x16_1_0_0_1_n_n.rhsIdx_val_of_single rfl _ _).trans hk
    | ⟨1, _⟩ => exact mm2_apply_r1 p q _)
  rw [el, er, transpose_ix2_apply]

/-- The single-block linear layer at entry (p, q): row p of the features against row q of the weight, plus bias entry q. -/
theorem pay0_apply (x0 x1 : Vec Ideal S64x768 .f32) (x4 : Vec Ideal S1x64 .f32) (p : Fin 64) (q : Fin 64) :
    k0_pay1 (F := Ideal) x0 x1 x4 (ix2 p q)
      = (∑ k : Fin 768, x0 (ix2 p k) * x1 (ix2 q k)) + x4 (ix2 (0 : Fin 1) q) := by
  unfold k0_pay1
  dsimp only
  rw [addf_apply, mm0_apply, shapeCast_self, broadcastTo_1b_ab_apply]

/-- The first graph layer's combine at entry (p, q) of a row block: neighbour mean and node features, each against
    its weight's row q, plus bias entry q, clamped below at 0. -/
theorem pay1_apply (x0 : Vec Ideal S10000x128 .f32) (x2 : Vec Ideal S64x128 .f32) (x5 : Vec Ideal S10000x128 .f32)
    (x6 : Vec Ideal S64x128 .f32) (x10 : Vec Ideal S1x64 .f32) (p : Fin 10000) (q : Fin 64) :
    k1_pay1 (F := Ideal) x0 x2 x5 x6 x10 (ix2 p q)
      = max ((∑ k : Fin 128, x0 (ix2 p k) * x2 (ix2 q k)) + (∑ k : Fin 128, x5 (ix2 p k) * x6 (ix2 q k))
          + x10 (ix2 (0 : Fin 1) q)) (Ideal.ofBits .f32 0x00000000#32) := by
  unfold k1_pay1
  dsimp only
  rw [maximumf_apply, addf_apply, addf_apply, shapeCast_self, mm1_apply, mm1_apply, shapeCast_self, broadcastTo_1b_ab_apply]
  rfl

/-- The second graph layer's combine at entry (p, q) of a row block (no clamp). -/
theorem pay2_apply (x0 : Vec Ideal S10000x64 .f32) (x2 : Vec Ideal S16x64 .f32) (x5 : Vec Ideal S10000x64 .f32)
    (x7 : Vec Ideal S16x64 .f32) (x11 : Vec Ideal S1x16 .f32) (p : Fin 10000) (q : Fin 16) :
    k2_pay1 (F := Ideal) x0 x2 x5 x7 x11 (ix2 p q)
      = (∑ k : Fin 64, x0 (ix2 p k) * x2 (ix2 q k)) + (∑ k : Fin 64, x5 (ix2 p k) * x7 (ix2 q k))
          + x11 (ix2 (0 : Fin 1) q) := by
  unfold k2_pay1
  dsimp only
  rw [addf_apply, addf_apply, shapeCast_self, shapeCast_self, mm2_apply, mm2_apply, shapeCast_self, broadcastTo_1b_ab_apply]

end Cert.KernelIdeal.Pay

end
-- ==== Proof.Layer0.lean ====
/-
  The first pallas_call — the linear map of the [64, 768] sentence features — as ONE function of the arrays it is
  entered with.

  The grid has one point: the body reads the features, the [64, 768] weight and the [1, 64] bias whole and writes the
  whole [64, 64] result  x · Wᵀ + b.
-/
import proofs.«155568_j3470333575208_1_alg».proof.Proof.Gen.KernelIdeal.Frame
import proofs.«155568_j3470333575208_1_alg».proof.Proof.Pay
import Idealize.ShloMosaic.Lib.Pipeline.Value
import Idealize.ShloMosaic.Lib.ValueIdx

set_option maxRecDepth 16384

noncomputable section

namespace Cert.KernelIdeal.Layer0

open Cert.KernelIdeal Cert.KernelIdeal.Gen Idealize.ShloMosaic Idealize.ShloMosaic.TcCoe Idealize.ShloMosaic.ValueIdx Idealize.SL.Sem
open Idealize.ShloMosaic.Pipeline (Dat)

/-- Row r, column q of  X · Wᵀ + b. -/
def linear (X Wt : FVec Ideal S64x768 .f32) (b : FVec Ideal S1x64 .f32) : FVec Ideal S64x64 .f32 := fun i =>
  (∑ k : Fin 768, X (ix2 (i 0) k) * Wt (ix2 (i 1) k)) + b (ix2 (0 : Fin 1) (i 1))

theorem hz : (![0, 0] : Fin 2 → Nat) = fun _ => 0 := funext fun a => by fin_cases a <;> rfl

/-- What the body leaves at entry y is the whole-array function at y, once each loaded block is known to be its array. -/
theorem point_eq (X Wt : FVec Ideal S64x768 .f32) (b : FVec Ideal S1x64 .f32)
    (x0 x1 : Vec Ideal S64x768 .f32) (x2 : Vec Ideal S1x64 .f32)
    (y : S64x64.Idx) (i : S64x64.Idx)
    (hi0 : (i 0).val = (y 0).val) (hi1 : (i 1).val = (y 1).val)
    (h0 : ∀ (p : Fin 64) (k : Fin 768), x0 (ix2 p k) = X (ix2 p k))
    (h1 : ∀ (q : Fin 64) (k : Fin 768), x1 (ix2 q k) = Wt (ix2 q k))
    (h2 : ∀ q : Fin 64, x2 (ix2 (0 : Fin 1) q) = b (ix2 (0 : Fin 1) q)) :
    k0_pay1 (F := Ideal) x0 x1 x2 y = linear X Wt b i := by
  obtain ⟨p, q, rfl⟩ : ∃ (p : Fin 64) (q : Fin 64), y = ix2 p q := ⟨y 0, y 1, eq_ix2 y⟩
  obtain ⟨p', q', rfl⟩ : ∃ (p' : Fin 64) (q' : Fin 64), i = ix2 p' q' := ⟨i 0, i 1, eq_ix2 i⟩
  have hp : p' = p := Fin.ext hi0
  have hq : q' = q := Fin.ext hi1
  subst hp hq
  rw [Pay.pay0_apply]
  unfold linear
  show _ = (∑ k : Fin 768, X (ix2 p' k) * Wt (ix2 q' k)) + b (ix2 (0 : Fin 1) q')
  rw [h2 q', Finset.sum_congr rfl fun k _ => show x0 (ix2 p' k) * x1 (ix2 q' k) = X (ix2 p' k) * Wt (ix2 q' k) by rw [h0 p' k, h1 q' k]]

section Region
variable (V : (c : Dev nD) → (b : Ref sig .tc) → Buf (Elt Ideal) ((c : Thread nD τ).loc b))

/-- The printed index maps at the grid's one point: every window at block 0. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- WHAT THE POINT WRITES BACK is `linear` of the entry arrays, read through the whole-array block. -/
theorem flushed_eq (c : Dev nD) (t : Fin cfg0.N) :
    (dat0 V c).flushed 3 t = ((cfg0.win 3).blk t).view.read (Elt Ideal)
      (linear (V c main_arg0) (V c main_arg4) (V c main_v0)) := by
  show (cfg0.win 3).cut (grid0.coords t) ((dat0 V c).after 3 t) = _
  rw [after0_3]
  unfold out0_3
  rw [View.canon_unit_zero hz]
  simp only [View.ld_unit_zero (S := S64x768) hz, View.ld_unit_zero (S := S1x64) hz]
  obtain ⟨e00, e01, e10, e11, e20, e21, e30, e31⟩ := idx_facts t
  funext j
  refine point_eq (V c main_arg0) (V c main_arg4) (V c main_v0)
    (iblk0 V c 0 t) (iblk0 V c 1 t) (iblk0 V c 2 t) j (((cfg0.win 3).blk t).view.emb j) ?_ ?_ ?_ ?_ ?_
  · show win0_3.index t (0 : Fin 2) * 64 + 1 * (j 0).val = (j 0).val
    rw [e30]; omega
  · show win0_3.index t (1 : Fin 2) * 64 + 1 * (j 1).val = (j 1).val
    rw [e31]; omega
  · intro p k
    show V c main_arg0 (((cfg0.win 0).blk t).view.emb (ix2 p k)) = V c main_arg0 (ix2 p k)
    refine congrArg (V c main_arg0) (funext fun a => Fin.ext ?_)
    match a with
    | ⟨0, _⟩ => show win0_0.index t (0 : Fin 2) * 64 + 1 * p.val = p.val; rw [e00]; omega
    | ⟨1, _⟩ => show win0_0.index t (1 : Fin 2) * 768 + 1 * k.val = k.val; rw [e01]; omega
  · intro q k
    show V c main_arg4 (((cfg0.win 1).blk t).view.emb (ix2 q k)) = V c main_arg4 (ix2 q k)
    refine congrArg (V c main_arg4) (funext fun a => Fin.ext ?_)
    match a with
    | ⟨0, _⟩ => show win0_1.index t (0 : Fin 2) * 64 + 1 * q.val = q.val; rw [e10]; omega
    | ⟨1, _⟩ => show win0_1.index t (1 : Fin 2) * 768 + 1 * k.val = k.val; rw [e11]; omega
  · intro q
    show V c main_v0 (((cfg0.win 2).blk t).view.emb (ix2 (0 : Fin 1) q)) = V c main_v0 (ix2 (0 : Fin 1) q)
    refine congrArg (V c main_v0) (funext fun a => Fin.ext ?_)
    match a with
    | ⟨0, _⟩ => show win0_2.index t (0 : Fin 2) * 1 + 1 * (0 : Fin 1).val = (0 : Fin 1).val; rw [e20]; rfl
    | ⟨1, _⟩ => show win0_2.index t (1 : Fin 2) * 64 + 1 * q.val = q.val; rw [e21]; omega

/-- An index of the result array is in the point's block iff each coordinate is within the block's extent. -/
theorem mem_blk (t : Fin cfg0.N) (i : S64x64.Idx) :
    i ∈ ((cfg0.win 3).blk t).view.set ↔ ∀ a : Fin 2, win0_3.index t a * S64x64.size a ≤ (i a).val ∧ (i a).val < win0_3.index t a * S64x64.size a + S64x64.size a := by
  show i ∈ ((View.whole main_v1).slice (win0_3.rect t)).set ↔ _
  rw [View.set_slice_whole, Rect.mem_set_unit]
  exact Iff.rfl

/-- THE ARRAY after the call: the one block is the whole array. -/
theorem final (c : Dev nD) : (dat0 V c).arrAt 3 cfg0.N = linear (V c main_arg0) (V c main_arg4) (V c main_v0) :=
  (dat0 V c).arrAt_eq_of_cover 3 _ (fun t _ => flushed_eq V c t) fun i => by
    have hi0 : (i 0).val < 64 := (i 0).isLt
    have hi1 : (i 1).val < 64 := (i 1).isLt
    have hN : grid0.N = 1 := N_0
    refine ⟨⟨0, by show 0 < grid0.N; omega⟩, flush0_3 _, ?_⟩
    rw [mem_blk]
    obtain ⟨-, -, -, -, -, -, e30, e31⟩ := idx_facts ⟨0, by show 0 < grid0.N; omega⟩
    intro a
    match a with
    | ⟨0, _⟩ => show win0_3.index _ (0 : Fin 2) * 64 ≤ (i 0).val ∧ (i 0).val < win0_3.index _ (0 : Fin 2) * 64 + 64; rw [e30]; omega
    | ⟨1, _⟩ => show win0_3.index _ (1 : Fin 2) * 64 ≤ (i 1).val ∧ (i 1).val < win0_3.index _ (1 : Fin 2) * 64 + 64; rw [e31]; omega

end Region

end Cert.KernelIdeal.Layer0

end
-- ==== Proof.Layer1.lean ====
/-
  The first graph layer's pallas_call as ONE function of the arrays it is entered with.

  The call walks 10 row blocks of 10000 nodes. At block t the body reads rows 10000·t … 10000·t + 9999 of the
  neighbour-mean array and of the node features, the two [64, 128] weights and the [1, 64] bias whole, and writes the
  same rows of the [100000, 64] result:  max(mean · Wlᵀ + x · Wrᵀ + b, 0).  Row r of the result therefore depends only
  on row r of the two inputs, and the ten blocks tile the result, so the array after the call is `sageRelu` of the entry
  arrays, whatever they are.
-/
import proofs.«155568_j3470333575208_1_alg».proof.Proof.Gen.KernelIdeal.Frame
import proofs.«155568_j3470333575208_1_alg».proof.Proof.Pay
import Idealize.ShloMosaic.Lib.Pipeline.Value
import Idealize.ShloMosaic.Lib.ValueIdx

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)

/-- Row r, column q of  max(A · Wlᵀ + X · Wrᵀ + b, 0). -/
def sageRelu (A X : FVec Ideal S100000x128 .f32) (Wl Wr : FVec Ideal S64x128 .f32) (b : FVec Ideal S1x64 .f32) :
    FVec Ideal S100000x64 .f32 := fun i =>
  max ((∑ k : Fin 128, A (ix2 (i 0) k) * Wl (ix2 (i 1) k)) + (∑ k : Fin 128, X (ix2 (i 0) k) * Wr (ix2 (i 1) k))
      + b (ix2 (0 : Fin 1) (i 1))) (Ideal.ofBits .f32 0x00000000#32)

theorem hz : (![0, 0] : Fin 2 → Nat) = fun _ => 0 := funext fun a => by fin_cases a <;> rfl

/-- What the body leaves at entry y of block T is the whole-array function at row 10000·T + y₀, column y₁, once each
    loaded block is known to be the matching rows of its array. -/
theorem point_eq (A X : FVec Ideal S100000x128 .f32) (Wl Wr : FVec Ideal S64x128 .f32) (b : FVec Ideal S1x64 .f32)
    (x0 x1 : Vec Ideal S10000x128 .f32) (x2 x3 : Vec Ideal S64x128 .f32) (x4 : Vec Ideal S1x64 .f32)
    (y : S10000x64.Idx) (i : S100000x64.Idx) (T : Nat)
    (hi0 : (i 0).val = T * 10000 + (y 0).val) (hi1 : (i 1).val = (y 1).val)
    (h0 : ∀ (p : Fin 10000) (k : Fin 128) (r : Fin 100000), r.val = T * 10000 + p.val → x0 (ix2 p k) = A (ix2 r k))
    (h1 : ∀ (p : Fin 10000) (k : Fin 128) (r : Fin 100000), r.val = T * 10000 + p.val → x1 (ix2 p k) = X (ix2 r k))
    (h2 : ∀ (q : Fin 64) (k : Fin 128), x2 (ix2 q k) = Wl (ix2 q k))
    (h3 : ∀ (q : Fin 64) (k : Fin 128), x3 (ix2 q k) = Wr (ix2 q k))
    (h4 : ∀ q : Fin 64, x4 (ix2 (0 : Fin 1) q) = b (ix2 (0 : Fin 1) q)) :
    k1_pay1 (F := Ideal) x0 x2 x1 x3 x4 y = sageRelu A X Wl Wr b i := by
  obtain ⟨p, q, rfl⟩ : ∃ (p : Fin 10000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hq : q' = q := Fin.ext hi1
  subst hq
  have hr : r.val = T * 10000 + p.val := hi0
  rw [Pay.pay1_apply]
  unfold sageRelu
  show _ = max ((∑ k : Fin 128, A (ix2 r k) * Wl (ix2 q' k)) + (∑ k : Fin 128, X (ix2 r k) * Wr (ix2 q' k))
      + b (ix2 (0 : Fin 1) q')) (Ideal.ofBits .f32 0x00000000#32)
  rw [h4 q', Finset.sum_congr rfl fun k _ => show x0 (ix2 p k) * x2 (ix2 q' k) = A (ix2 r k) * Wl (ix2 q' k) by rw [h0 p k r hr, h2 q' k],
    Finset.sum_congr rfl fun k _ => show x1 (ix2 p k) * x3 (ix2 q' k) = X (ix2 r k) * Wr (ix2 q' k) by rw [h1 p k r hr, h3 q' k]]

section Region
variable (V : (c : Dev nD) → (b : Ref sig .tc) → Buf (Elt Ideal) ((c : Thread nD τ).loc b))

/-- The printed index maps over the grid: the two row-blocked inputs and the output are at block t, the weights and
    the bias at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK is block t of `sageRelu` of the entry arrays. -/
theorem flushed_eq (c : Dev nD) (t : Fin cfg1.N) :
    (dat1 V c).flushed 5 t = ((cfg1.win 5).blk t).view.read (Elt Ideal)
      (sageRelu (V c main_v24) (V c main_arg1) (V c main_arg6) (V c main_arg7) (V c main_v25)) := by
  show (cfg1.win 5).cut (grid1.coords t) ((dat1 V c).after 5 t) = _
  rw [after1_5]
  unfold out1_5
  rw [View.canon_unit_zero hz]
  simp only [View.ld_unit_zero (S := S10000x128) hz, View.ld_unit_zero (S := S64x128) hz, View.ld_unit_zero (S := S1x64) hz]
  obtain ⟨e00, e01, e10, e11, e20, e21, e30, e31, e40, e41, e50, e51⟩ := idx_facts t
  funext j
  refine point_eq (V c main_v24) (V c main_arg1) (V c main_arg6) (V c main_arg7) (V c main_v25)
    (iblk1 V c 0 t) (iblk1 V c 1 t) (iblk1 V c 2 t) (iblk1 V c 3 t) (iblk1 V c 4 t) j (((cfg1.win 5).blk t).view.emb j) t.val ?_ ?_ ?_ ?_ ?_ ?_ ?_
  · show win1_5.index t (0 : Fin 2) * 10000 + 1 * (j 0).val = t.val * 10000 + (j 0).val
    rw [e50]; omega
  · show win1_5.index t (1 : Fin 2) * 64 + 1 * (j 1).val = (j 1).val
    rw [e51]; omega
  · intro p k r hr
    show V c main_v24 (((cfg1.win 0).blk t).view.emb (ix2 p k)) = V c main_v24 (ix2 r k)
    refine congrArg (V c main_v24) (funext fun a => Fin.ext ?_)
    match a with
    | ⟨0, _⟩ => show win1_0.index t (0 : Fin 2) * 10000 + 1 * p.val = r.val; rw [e00, hr]; omega
    | ⟨1, _⟩ => show win1_0.index t (1 : Fin 2) * 128 + 1 * k.val = k.val; rw [e01]; omega
  · intro p k r hr
    show V c main_arg1 (((cfg1.win 1).blk t).view.emb (ix2 p k)) = V c main_arg1 (ix2 r k)
    refine congrArg (V c main_arg1) (funext fun a => Fin.ext ?_)
    match a with
    | ⟨0, _⟩ => show win1_1.index t (0 : Fin 2) * 10000 + 1 * p.val = r.val; rw [e10, hr]; omega
    | ⟨1, _⟩ => show win1_1.index t (1 : Fin 2) * 128 + 1 * k.val = k.val; rw [e11]; omega
  · intro q k
    show V c main_arg6 (((cfg1.win 2).blk t).view.emb (ix2 q k)) = V c main_arg6 (ix2 q k)
    refine congrArg (V c main_arg6) (funext fun a => Fin.ext ?_)
    match a with
    | ⟨0, _⟩ => show win1_2.index t (0 : Fin 2) * 64 + 1 * q.val = q.val; rw [e20]; omega
    | ⟨1, _⟩ => show win1_2.index t (1 : Fin 2) * 128 + 1 * k.val = k.val; rw [e21]; omega
  · intro q k
    show V c main_arg7 (((cfg1.win 3).blk t).view.emb (ix2 q k)) = V c main_arg7 (ix2 q k)
    refine congrArg (V c main_arg7) (funext fun a => Fin.ext ?_)
    match a with
    | ⟨0, _⟩ => show win1_3.index t (0 : Fin 2) * 64 + 1 * q.val = q.val; rw [e30]; omega
    | ⟨1, _⟩ => show win1_3.index t (1 : Fin 2) * 128 + 1 * k.val = k.val; rw [e31]; omega
  · intro q
    show V c main_v25 (((cfg1.win 4).blk t).view.emb (ix2 (0 : Fin 1) q)) = V c main_v25 (ix2 (0 : Fin 1) q)
    refine congrArg (V c main_v25) (funext fun a => Fin.ext ?_)
    match a with
    | ⟨0, _⟩ => show win1_4.index t (0 : Fin 2) * 1 + 1 * (0 : Fin 1).val = (0 : Fin 1).val; rw [e40]; rfl
    | ⟨1, _⟩ => show win1_4.index t (1 : Fin 2) * 64 + 1 * q.val = q.val; rw [e41]; omega

/-- An index of the result array is in point t's block iff its row is among the block's 10000 rows. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v26).slice (win1_5.rect t)).set ↔ _
  rw [View.set_slice_whole, Rect.mem_set_unit]
  exact Iff.rfl

/-- THE ARRAY after the call: the ten blocks tile it. -/
theorem final (c : Dev nD) : (dat1 V c).arrAt 5 cfg1.N
    = sageRelu (V c main_v24) (V c main_arg1) (V c main_arg6) (V c main_arg7) (V c main_v25) :=
  (dat1 V c).arrAt_eq_of_cover 5 _ (fun t _ => flushed_eq V c t) fun i => by
    have hi0 : (i 0).val < 100000 := (i 0).isLt
    have hi1 : (i 1).val < 64 := (i 1).isLt
    have hN : grid1.N = 10 := N_1
    refine ⟨⟨(i 0).val / 10000, by show (i 0).val / 10000 < grid1.N; omega⟩, flush1_5 _, ?_⟩
    rw [mem_blk]
    obtain ⟨-, -, -, -, -, -, -, -, -, -, e50, e51⟩ := idx_facts ⟨(i 0).val / 10000, by show (i 0).val / 10000 < grid1.N; omega⟩
    intro a
    match a with
    | ⟨0, _⟩ => show win1_5.index _ (0 : Fin 2) * 10000 ≤ (i 0).val ∧ (i 0).val < win1_5.index _ (0 : Fin 2) * 10000 + 10000; rw [e50]; show (i 0).val / 10000 * 10000 ≤ (i 0).val ∧ (i 0).val < (i 0).val / 10000 * 10000 + 10000; omega
    | ⟨1, _⟩ => show win1_5.index _ (1 : Fin 2) * 64 ≤ (i 1).val ∧ (i 1).val < win1_5.index _ (1 : Fin 2) * 64 + 64; rw [e51]; omega

end Region

end Cert.KernelIdeal.Layer1

end
-- ==== Proof.Layer2.lean ====
/-
  The second graph layer's pallas_call as ONE function of the arrays it is entered with.

  Ten row blocks of 10000 nodes again. At block t the body reads rows 10000·t … 10000·t + 9999 of the neighbour mean of
  the first layer's output and of that output itself, the two [16, 64] weights and the [1, 16] bias whole, and writes
  the same rows of the [100000, 16] result:  mean · Wlᵀ + h · Wrᵀ + b  (no clamp in this layer). The ten blocks tile the
  result, so the array after the call is `sageLin` of the entry arrays, whatever they are.
-/
import proofs.«155568_j3470333575208_1_alg».proof.Proof.Gen.KernelIdeal.Frame
import proofs.«155568_j3470333575208_1_alg».proof.Proof.Pay
import Idealize.ShloMosaic.Lib.Pipeline.Value
import Idealize.ShloMosaic.Lib.ValueIdx

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat)

/-- Row r, column q of  A · Wlᵀ + X · Wrᵀ + b. -/
def sageLin (A X : FVec Ideal S100000x64 .f32) (Wl Wr : FVec Ideal S16x64 .f32) (b : FVec Ideal S1x16 .f32) :
    FVec Ideal S100000x16 .f32 := fun i =>
  (∑ k : Fin 64, A (ix2 (i 0) k) * Wl (ix2 (i 1) k)) + (∑ k : Fin 64, X (ix2 (i 0) k) * Wr (ix2 (i 1) k))
      + b (ix2 (0 : Fin 1) (i 1))

theorem hz : (![0, 0] : Fin 2 → Nat) = fun _ => 0 := funext fun a => by fin_cases a <;> rfl

/-- What the body leaves at entry y of block T is the whole-array function at row 10000·T + y₀, column y₁, once each
    loaded block is known to be the matching rows of its array. -/
theorem point_eq (A X : FVec Ideal S100000x64 .f32) (Wl Wr : FVec Ideal S16x64 .f32) (b : FVec Ideal S1x16 .f32)
    (x0 x1 : Vec Ideal S10000x64 .f32) (x2 x3 : Vec Ideal S16x64 .f32) (x4 : Vec Ideal S1x16 .f32)
    (y : S10000x16.Idx) (i : S100000x16.Idx) (T : Nat)
    (hi0 : (i 0).val = T * 10000 + (y 0).val) (hi1 : (i 1).val = (y 1).val)
    (h0 : ∀ (p : Fin 10000) (k : Fin 64) (r : Fin 100000), r.val = T * 10000 + p.val → x0 (ix2 p k) = A (ix2 r k))
    (h1 : ∀ (p : Fin 10000) (k : Fin 64) (r : Fin 100000), r.val = T * 10000 + p.val → x1 (ix2 p k) = X (ix2 r k))
    (h2 : ∀ (q : Fin 16) (k : Fin 64), x2 (ix2 q k) = Wl (ix2 q k))
    (h3 : ∀ (q : Fin 16) (k : Fin 64), x3 (ix2 q k) = Wr (ix2 q k))
    (h4 : ∀ q : Fin 16, x4 (ix2 (0 : Fin 1) q) = b (ix2 (0 : Fin 1) q)) :
    k2_pay1 (F := Ideal) x0 x2 x1 x3 x4 y = sageLin A X Wl Wr b i := by
  obtain ⟨p, q, rfl⟩ : ∃ (p : Fin 10000) (q : Fin 16), y = ix2 p q := ⟨y 0, y 1, eq_ix2 y⟩
  obtain ⟨r, q', rfl⟩ : ∃ (r : Fin 100000) (q' : Fin 16), i = ix2 r q' := ⟨i 0, i 1, eq_ix2 i⟩
  have hq : q' = q := Fin.ext hi1
  subst hq
  have hr : r.val = T * 10000 + p.val := hi0
  rw [Pay.pay2_apply]
  unfold sageLin
  show _ = (∑ k : Fin 64, A (ix2 r k) * Wl (ix2 q' k)) + (∑ k : Fin 64, X (ix2 r k) * Wr (ix2 q' k))
      + b (ix2 (0 : Fin 1) q')
  rw [h4 q', Finset.sum_congr rfl fun k _ => show x0 (ix2 p k) * x2 (ix2 q' k) = A (ix2 r k) * Wl (ix2 q' k) by rw [h0 p k r hr, h2 q' k],
    Finset.sum_congr rfl fun k _ => show x1 (ix2 p k) * x3 (ix2 q' k) = X (ix2 r k) * Wr (ix2 q' k) by rw [h1 p k r hr, h3 q' k]]

section Region
variable (V : (c : Dev nD) → (b : Ref sig .tc) → Buf (Elt Ideal) ((c : Thread nD τ).loc b))

/-- The printed index maps over the grid: the two row-blocked inputs and the output are at block t, the weights and
    the bias at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT t WRITES BACK is block t of `sageLin` of the entry arrays. -/
theorem flushed_eq (c : Dev nD) (t : Fin cfg2.N) :
    (dat2 V c).flushed 5 t = ((cfg2.win 5).blk t).view.read (Elt Ideal)
      (sageLin (V c main_v45) (V c main_v26) (V c main_arg9) (V c main_arg10) (V c main_v46)) := by
  show (cfg2.win 5).cut (grid2.coords t) ((dat2 V c).after 5 t) = _
  rw [after2_5]
  unfold out2_5
  rw [View.canon_unit_zero hz]
  simp only [View.ld_unit_zero (S := S10000x64) hz, View.ld_unit_zero (S := S16x64) hz, View.ld_unit_zero (S := S1x16) hz]
  obtain ⟨e00, e01, e10, e11, e20, e21, e30, e31, e40, e41, e50, e51⟩ := idx_facts t
  funext j
  refine point_eq (V c main_v45) (V c main_v26) (V c main_arg9) (V c main_arg10) (V c main_v46)
    (iblk2 V c 0 t) (iblk2 V c 1 t) (iblk2 V c 2 t) (iblk2 V c 3 t) (iblk2 V c 4 t) j (((cfg2.win 5).blk t).view.emb j) t.val ?_ ?_ ?_ ?_ ?_ ?_ ?_
  · show win2_5.index t (0 : Fin 2) * 10000 + 1 * (j 0).val = t.val * 10000 + (j 0).val
    rw [e50]; omega
  · show win2_5.index t (1 : Fin 2) * 16 + 1 * (j 1).val = (j 1).val
    rw [e51]; omega
  · intro p k r hr
    show V c main_v45 (((cfg2.win 0).blk t).view.emb (ix2 p k)) = V c main_v45 (ix2 r k)
    refine congrArg (V c main_v45) (funext fun a => Fin.ext ?_)
    match a with
    | ⟨0, _⟩ => show win2_0.index t (0 : Fin 2) * 10000 + 1 * p.val = r.val; rw [e00, hr]; omega
    | ⟨1, _⟩ => show win2_0.index t (1 : Fin 2) * 64 + 1 * k.val = k.val; rw [e01]; omega
  · intro p k r hr
    show V c main_v26 (((cfg2.win 1).blk t).view.emb (ix2 p k)) = V c main_v26 (ix2 r k)
    refine congrArg (V c main_v26) (funext fun a => Fin.ext ?_)
    match a with
    | ⟨0, _⟩ => show win2_1.index t (0 : Fin 2) * 10000 + 1 * p.val = r.val; rw [e10, hr]; omega
    | ⟨1, _⟩ => show win2_1.index t (1 : Fin 2) * 64 + 1 * k.val = k.val; rw [e11]; omega
  · intro q k
    show V c main_arg9 (((cfg2.win 2).blk t).view.emb (ix2 q k)) = V c main_arg9 (ix2 q k)
    refine congrArg (V c main_arg9) (funext fun a => Fin.ext ?_)
    match a with
    | ⟨0, _⟩ => show win2_2.index t (0 : Fin 2) * 16 + 1 * q.val = q.val; rw [e20]; omega
    | ⟨1, _⟩ => show win2_2.index t (1 : Fin 2) * 64 + 1 * k.val = k.val; rw [e21]; omega
  · intro q k
    show V c main_arg10 (((cfg2.win 3).blk t).view.emb (ix2 q k)) = V c main_arg10 (ix2 q k)
    refine congrArg (V c main_arg10) (funext fun a => Fin.ext ?_)
    match a with
    | ⟨0, _⟩ => show win2_3.index t (0 : Fin 2) * 16 + 1 * q.val = q.val; rw [e30]; omega
    | ⟨1, _⟩ => show win2_3.index t (1 : Fin 2) * 64 + 1 * k.val = k.val; rw [e31]; omega
  · intro q
    show V c main_v46 (((cfg2.win 4).blk t).view.emb (ix2 (0 : Fin 1) q)) = V c main_v46 (ix2 (0 : Fin 1) q)
    refine congrArg (V c main_v46) (funext fun a => Fin.ext ?_)
    match a with
    | ⟨0, _⟩ => show win2_4.index t (0 : Fin 2) * 1 + 1 * (0 : Fin 1).val = (0 : Fin 1).val; rw [e40]; rfl
    | ⟨1, _⟩ => show win2_4.index t (1 : Fin 2) * 16 + 1 * q.val = q.val; rw [e41]; omega

/-- An index of the result array is in point t's block iff its row is among the block's 10000 rows. -/
theorem mem_blk (t : Fin cfg2.N) (i : S100000x16.Idx) :
    i ∈ ((cfg2.win 5).blk t).view.set ↔ ∀ a : Fin 2, win2_5.index t a * S10000x16.size a ≤ (i a).val ∧ (i a).val < win2_5.index t a * S10000x16.size a + S10000x16.size a := by
  show i ∈ ((View.whole main_v47).slice (win2_5.rect t)).set ↔ _
  rw [View.set_slice_whole, Rect.mem_set_unit]
  exact Iff.rfl

/-- THE ARRAY after the call: the ten blocks tile it. -/
theorem final (c : Dev nD) : (dat2 V c).arrAt 5 cfg2.N
    = sageLin (V c main_v45) (V c main_v26) (V c main_arg9) (V c main_arg10) (V c main_v46) :=
  (dat2 V c).arrAt_eq_of_cover 5 _ (fun t _ => flushed_eq V c t) fun i => by
    have hi0 : (i 0).val < 100000 := (i 0).isLt
    have hi1 : (i 1).val < 16 := (i 1).isLt
    have hN : grid2.N = 10 := N_2
    refine ⟨⟨(i 0).val / 10000, by show (i 0).val / 10000 < grid2.N; omega⟩, flush2_5 _, ?_⟩
    rw [mem_blk]
    obtain ⟨-, -, -, -, -, -, -, -, -, -, e50, e51⟩ := idx_facts ⟨(i 0).val / 10000, by show (i 0).val / 10000 < grid2.N; omega⟩
    intro a
    match a with
    | ⟨0, _⟩ => show win2_5.index _ (0 : Fin 2) * 10000 ≤ (i 0).val ∧ (i 0).val < win2_5.index _ (0 : Fin 2) * 10000 + 10000; rw [e50]; show (i 0).val / 10000 * 10000 ≤ (i 0).val ∧ (i 0).val < (i 0).val / 10000 * 10000 + 10000; omega
    | ⟨1, _⟩ => show win2_5.index _ (1 : Fin 2) * 16 ≤ (i 1).val ∧ (i 1).val < win2_5.index _ (1 : Fin 2) * 16 + 16; rw [e51]; omega

end Region

end Cert.KernelIdeal.Layer2

end
-- ==== Proof.RefBridge.lean ====
/-
  The reference's stages, read at an entry, are the same three row-wise functions the pallas_calls compute.

  jnp spells each layer  a @ Wl.T + x @ Wr.T + b  as two `dot_general`s against transposed weights, a sum, and the bias
  broadcast [d] → [1, d] → [n, d]; the first layer is followed by `maximum(·, 0)`. At the ideal values a `dot_general` at
  entry (r, q) is the inner product of row r of the left operand with column q of the right one, and column q of a
  transposed weight is row q of the weight: term by term this is `linear`, `sageRelu`, `sageLin`.
-/
import proofs.«155568_j3470333575208_1_alg».proof.Proof.Layer0
import proofs.«155568_j3470333575208_1_alg».proof.Proof.Layer1
import proofs.«155568_j3470333575208_1_alg».proof.Proof.Layer2
import proofs.«155568_j3470333575208_1_alg».proof.Proof.Gen.ReferenceIdeal.Read

set_option maxRecDepth 16384

noncomputable section

namespace Cert.ReferenceIdeal.Bridge

open Cert.ReferenceIdeal Cert.ReferenceIdeal.Read Idealize.ShloMosaic Idealize.ShloMosaic.ValueIdx

/-- The reference's linear map of the sentence features is `linear` of the features, the weight and the bias as a row. -/
theorem layer0_eq (x0 x4 : (⟨S64x768, .f32⟩ : BufTy).Contents (Elt Ideal)) (x5 : (⟨S64, .f32⟩ : BufTy).Contents (Elt Ideal))
    (brow : FVec Ideal S1x64 .f32) (hb : ∀ q : Fin 64, brow (ix2 (0 : Fin 1) q) = (x5 : FVec Ideal S64 .f32) (ix1 q)) :
    Cert.KernelIdeal.Layer0.linear x0 x4 brow = val_main_v4 (F := Ideal) x0 x4 x5 := by
  funext i
  obtain ⟨r, q, rfl⟩ : ∃ (r : Fin 64) (q : Fin 64), i = ix2 r q := ⟨i 0, i 1, eq_ix2 i⟩
  rw [val_main_v4_apply, val_main_v1_apply, val_main_v3_apply, val_main_v2_apply]
  simp only [val_main_v0_apply]
  have el : ∀ k : Fin 768, lidx_main_v1 (ix2 r q) k = ix2 r k := fun k => funext fun a => by
    match a with | ⟨0, _⟩ => rfl | ⟨1, _⟩ => rfl
  have er : ∀ k : Fin 768, idx_main_v0 (ridx_main_v1 (ix2 r q) k) = ix2 q k := fun k => funext fun a => by
    match a with | ⟨0, _⟩ => rfl | ⟨1, _⟩ => rfl
  have eb : idx_main_v2 (idx_main_v3 (ix2 r q)) = ix1 q := funext fun a => by
    match a with | ⟨0, _⟩ => rfl
  simp only [el, er, eb]
  unfold Cert.KernelIdeal.Layer0.linear
  rw [hb q]
  rfl

/-- The first graph layer of the reference is `sageRelu` of its neighbour mean, the node features, the weights and the
    bias as a row. -/
theorem layer1_eq (x1 : (⟨S100000x128, .f32⟩ : BufTy).Contents (Elt Ideal)) (x2 : (⟨S2x600000, .i32⟩ : BufTy).Contents (Elt Ideal))
    (x6 x7 : (⟨S64x128, .f32⟩ : BufTy).Contents (Elt Ideal)) (x8 : (⟨S64, .f32⟩ : BufTy).Contents (Elt Ideal))
    (brow : FVec Ideal S1x64 .f32) (hb : ∀ q : Fin 64, brow (ix2 (0 : Fin 1) q) = (x8 : FVec Ideal S64 .f32) (ix1 q)) :
    Cert.KernelIdeal.Layer1.sageRelu (val_main_v27 (F := Ideal) x1 x2) x1 x6 x7 brow
      = val_main_v36 (F := Ideal) x1 x2 x6 x7 x8 := by
  funext i
  obtain ⟨r, q, rfl⟩ : ∃ (r : Fin 100000) (q : Fin 64), i = ix2 r q := ⟨i 0, i 1, eq_ix2 i⟩
  rw [val_main_v36_apply, val_main_v35_apply, val_main_v32_apply, val_main_v29_apply, val_main_v31_apply,
    val_main_v34_apply, val_main_v33_apply, val_main_call0_v0_apply, val_main_call0_cst_apply]
  simp only [val_main_v28_apply, val_main_v30_apply]
  have el : ∀ k : Fin 128, lidx_main_v29 (ix2 r q) k = ix2 r k := fun k => funext fun a => by
    match a with | ⟨0, _⟩ => rfl | ⟨1, _⟩ => rfl
  have er : ∀ k : Fin 128, idx_main_v28 (ridx_main_v29 (ix2 r q) k) = ix2 q k := fun k => funext fun a => by
    match a with | ⟨0, _⟩ => rfl | ⟨1, _⟩ => rfl
  have el' : ∀ k : Fin 128, lidx_main_v31 (ix2 r q) k = ix2 r k := fun k => funext fun a => by
    match a with | ⟨0, _⟩ => rfl | ⟨1, _⟩ => rfl
  have er' : ∀ k : Fin 128, idx_main_v30 (ridx_main_v31 (ix2 r q) k) = ix2 q k := fun k => funext fun a => by
    match a with | ⟨0, _⟩ => rfl | ⟨1, _⟩ => rfl
  have eb : idx_main_v33 (idx_main_v34 (ix2 r q)) = ix1 q := funext fun a => by
    match a with | ⟨0, _⟩ => rfl
  simp only [el, er, el', er', eb]
  unfold Cert.KernelIdeal.Layer1.sageRelu
  rw [hb q]
  rfl

/-- The second graph layer of the reference is `sageLin` of its neighbour mean, the first layer's output, the weights
    and the bias as a row. -/
theorem layer2_eq (x1 : (⟨S100000x128, .f32⟩ : BufTy).Contents (Elt Ideal)) (x2 : (⟨S2x600000, .i32⟩ : BufTy).Contents (Elt Ideal))
    (x6 x7 : (⟨S64x128, .f32⟩ : BufTy).Contents (Elt Ideal)) (x8 : (⟨S64, .f32⟩ : BufTy).Contents (Elt Ideal))
    (x9 x10 : (⟨S16x64, .f32⟩ : BufTy).Contents (Elt Ideal)) (x11 : (⟨S16, .f32⟩ : BufTy).Contents (Elt Ideal))
    (brow : FVec Ideal S1x16 .f32) (hb : ∀ q : Fin 16, brow (ix2 (0 : Fin 1) q) = (x11 : FVec Ideal S16 .f32) (ix1 q)) :
    Cert.KernelIdeal.Layer2.sageLin (val_main_v55 (F := Ideal) x1 x2 x6 x7 x8) (val_main_v36 (F := Ideal) x1 x2 x6 x7 x8) x9 x10 brow
      = val_main_v63 (F := Ideal) x1 x2 x6 x7 x8 x9 x10 x11 := by
  funext i
  obtain ⟨r, q, rfl⟩ : ∃ (r : Fin 100000) (q : Fin 16), i = ix2 r q := ⟨i 0, i 1, eq_ix2 i⟩
  rw [val_main_v63_apply, val_main_v60_apply, val_main_v57_apply, val_main_v59_apply, val_main_v62_apply, val_main_v61_apply]
  simp only [val_main_v56_apply, val_main_v58_apply]
  have el : ∀ k : Fin 64, lidx_main_v57 (ix2 r q) k = ix2 r k := fun k => funext fun a => by
    match a with | ⟨0, _⟩ => rfl | ⟨1, _⟩ => rfl
  have er : ∀ k : Fin 64, idx_main_v56 (ridx_main_v57 (ix2 r q) k) = ix2 q k := fun k => funext fun a => by
    match a with | ⟨0, _⟩ => rfl | ⟨1, _⟩ => rfl
  have el' : ∀ k : Fin 64, lidx_main_v59 (ix2 r q) k = ix2 r k := fun k => funext fun a => by
    match a with | ⟨0, _⟩ => rfl | ⟨1, _⟩ => rfl
  have er' : ∀ k : Fin 64, idx_main_v58 (ridx_main_v59 (ix2 r q) k) = ix2 q k := fun k => funext fun a => by
    match a with | ⟨0, _⟩ => rfl | ⟨1, _⟩ => rfl
  have eb : idx_main_v61 (idx_main_v62 (ix2 r q)) = ix1 q := funext fun a => by
    match a with | ⟨0, _⟩ => rfl
  simp only [el, er, el', er', eb]
  unfold Cert.KernelIdeal.Layer2.sageLin
  rw [hb q]
  rfl

end Cert.ReferenceIdeal.Bridge

end
-- ==== Proof.Chain.lean ====
/-
  The idealized kernel program's result buffer as the reference's function of the launch arguments.

  Walk the buffer contents through @main's seven segments. A host stretch gives the reference's stage of the same
  operands (Stretch.lean) and leaves the other buffers alone; a pallas_call replaces its output array by its row-wise
  function of the arrays it is entered with (Layer0 / Layer1 / Layer2), which is the reference's stage at those
  operands (RefBridge.lean), and leaves every buffer that is not one of its arrays alone. At the end the result
  buffer holds the reference's term of the fourteen arguments.
-/
import proofs.«155568_j3470333575208_1_alg».proof.Proof.Gen.KernelIdeal.Frame
import proofs.«155568_j3470333575208_1_alg».proof.Proof.Stretch
import proofs.«155568_j3470333575208_1_alg».proof.Proof.RefBridge

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- Core c's launch contents of a buffer. -/
abbrev A (b : Ref sig .tc) : Buf (Elt Ideal) ((c : Thread nD τ).loc b) := m ((c : Thread nD τ).loc b)

/-! ## Entering the first call -/

theorem w1_arg0 : W1 m ρ c (Proc.devRef .tc main_arg0) = A m c main_arg0 := Stretch.s0_arg0 (W0 m ρ c)
theorem w1_arg1 : W1 m ρ c (Proc.devRef .tc main_arg1) = A m c main_arg1 := Stretch.s0_arg1 (W0 m ρ c)
theorem w1_arg2 : W1 m ρ c (Proc.devRef .tc main_arg2) = A m c main_arg2 := Stretch.s0_arg2 (W0 m ρ c)
theorem w1_arg3 : W1 m ρ c (Proc.devRef .tc main_arg3) = A m c main_arg3 := Stretch.s0_arg3 (W0 m ρ c)
theorem w1_arg4 : W1 m ρ c (Proc.devRef .tc main_arg4) = A m c main_arg4 := Stretch.s0_arg4 (W0 m ρ c)
theorem w1_arg6 : W1 m ρ c (Proc.devRef .tc main_arg6) = A m c main_arg6 := Stretch.s0_arg6 (W0 m ρ c)
theorem w1_arg7 : W1 m ρ c (Proc.devRef .tc main_arg7) = A m c main_arg7 := Stretch.s0_arg7 (W0 m ρ c)
theorem w1_arg8 : W1 m ρ c (Proc.devRef .tc main_arg8) = A m c main_arg8 := Stretch.s0_arg8 (W0 m ρ c)
theorem w1_arg9 : W1 m ρ c (Proc.devRef .tc main_arg9) = A m c main_arg9 := Stretch.s0_arg9 (W0 m ρ c)
theorem w1_arg10 : W1 m ρ c (Proc.devRef .tc main_arg10) = A m c main_arg10 := Stretch.s0_arg10 (W0 m ρ c)
theorem w1_arg11 : W1 m ρ c (Proc.devRef .tc main_arg11) = A m c main_arg11 := Stretch.s0_arg11 (W0 m ρ c)
theorem w1_arg12 : W1 m ρ c (Proc.devRef .tc main_arg12) = A m c main_arg12 := Stretch.s0_arg12 (W0 m ρ c)
theorem w1_arg13 : W1 m ρ c (Proc.devRef .tc main_arg13) = A m c main_arg13 := Stretch.s0_arg13 (W0 m ρ c)

/-! ## Leaving the first call -/

/-- The first call's output is the reference's linear map of the sentence features. -/
theorem w2_v1 : W2 m ρ c (Proc.devRef .tc main_v1)
    = Cert.ReferenceIdeal.Read.val_main_v4 (F := Ideal) (A m c main_arg0) (A m c main_arg4) (A m c main_arg5) := by
  refine (W2_arr m ρ c 3).trans ((Layer0.final (V1 m ρ) c).trans ?_)
  show Layer0.linear (W1 m ρ c (Proc.devRef .tc main_arg0)) (W1 m ρ c (Proc.devRef .tc main_arg4)) (W1 m ρ c (Proc.devRef .tc main_v0)) = _
  rw [w1_arg0, w1_arg4]
  exact Cert.ReferenceIdeal.Bridge.layer0_eq _ _ _ _ (Stretch.s0_bias (W0 m ρ c))

theorem w2_arg1 : W2 m ρ c (Proc.devRef .tc main_arg1) = A m c main_arg1 := (W2_of_ne m ρ c main_arg1 (by decide)).trans (w1_arg1 m ρ c)
theorem w2_arg2 : W2 m ρ c (Proc.devRef .tc main_arg2) = A m c main_arg2 := (W2_of_ne m ρ c main_arg2 (by decide)).trans (w1_arg2 m ρ c)
theorem w2_arg3 : W2 m ρ c (Proc.devRef .tc main_arg3) = A m c main_arg3 := (W2_of_ne m ρ c main_arg3 (by decide)).trans (w1_arg3 m ρ c)
theorem w2_arg6 : W2 m ρ c (Proc.devRef .tc main_arg6) = A m c main_arg6 := (W2_of_ne m ρ c main_arg6 (by decide)).trans (w1_arg6 m ρ c)
theorem w2_arg7 : W2 m ρ c (Proc.devRef .tc main_arg7) = A m c main_arg7 := (W2_of_ne m ρ c main_arg7 (by decide)).trans (w1_arg7 m ρ c)
theorem w2_arg8 : W2 m ρ c (Proc.devRef .tc main_arg8) = A m c main_arg8 := (W2_of_ne m ρ c main_arg8 (by decide)).trans (w1_arg8 m ρ c)
theorem w2_arg9 : W2 m ρ c (Proc.devRef .tc main_arg9) = A m c main_arg9 := (W2_of_ne m ρ c main_arg9 (by decide)).trans (w1_arg9 m ρ c)
theorem w2_arg10 : W2 m ρ c (Proc.devRef .tc main_arg10) = A m c main_arg10 := (W2_of_ne m ρ c main_arg10 (by decide)).trans (w1_arg10 m ρ c)
theorem w2_arg11 : W2 m ρ c (Proc.devRef .tc main_arg11) = A m c main_arg11 := (W2_of_ne m ρ c main_arg11 (by decide)).trans (w1_arg11 m ρ c)
theorem w2_arg12 : W2 m ρ c (Proc.devRef .tc main_arg12) = A m c main_arg12 := (W2_of_ne m ρ c main_arg12 (by decide)).trans (w1_arg12 m ρ c)
theorem w2_arg13 : W2 m ρ c (Proc.devRef .tc main_arg13) = A m c main_arg13 := (W2_of_ne m ρ c main_arg13 (by decide)).trans (w1_arg13 m ρ c)

/-! ## Entering the second call -/

theorem w3_v24 : W3 m ρ c (Proc.devRef .tc main_v24) = Cert.ReferenceIdeal.Read.val_main_v27 (F := Ideal) (A m c main_arg1) (A m c main_arg2) :=
  Stretch.s1_mean (W2 m ρ c) _ _ (w2_arg1 m ρ c) (w2_arg2 m ρ c)
theorem w3_v3 : W3 m ρ c (Proc.devRef .tc main_v3) = Cert.ReferenceIdeal.Read.val_main_v6 (F := Ideal) (A m c main_arg2) :=
  Stretch.s1_src (W2 m ρ c) _ (w2_arg2 m ρ c)
theorem w3_v5 : W3 m ρ c (Proc.devRef .tc main_v5) = Cert.ReferenceIdeal.Read.val_main_v8 (F := Ideal) (A m c main_arg2) :=
  Stretch.s1_dst (W2 m ρ c) _ (w2_arg2 m ρ c)
theorem w3_bias (q : Fin 64) : (W3 m ρ c (Proc.devRef .tc main_v25) : FVec Ideal S1x64 .f32) (ix2 (0 : Fin 1) q)
    = (A m c main_arg8 : FVec Ideal S64 .f32) (ix1 q) :=
  (Stretch.s1_bias (W2 m ρ c) q).trans (congrFun (w2_arg8 m ρ c) (ix1 q))
theorem w3_v1 : W3 m ρ c (Proc.devRef .tc main_v1)
    = Cert.ReferenceIdeal.Read.val_main_v4 (F := Ideal) (A m c main_arg0) (A m c main_arg4) (A m c main_arg5) := (Stretch.s1_v1 (W2 m ρ c)).trans (w2_v1 m ρ c)
theorem w3_arg1 : W3 m ρ c (Proc.devRef .tc main_arg1) = A m c main_arg1 := (Stretch.s1_arg1 (W2 m ρ c)).trans (w2_arg1 m ρ c)
theorem w3_arg3 : W3 m ρ c (Proc.devRef .tc main_arg3) = A m c main_arg3 := (Stretch.s1_arg3 (W2 m ρ c)).trans (w2_arg3 m ρ c)
theorem w3_arg6 : W3 m ρ c (Proc.devRef .tc main_arg6) = A m c main_arg6 := (Stretch.s1_arg6 (W2 m ρ c)).trans (w2_arg6 m ρ c)
theorem w3_arg7 : W3 m ρ c (Proc.devRef .tc main_arg7) = A m c main_arg7 := (Stretch.s1_arg7 (W2 m ρ c)).trans (w2_arg7 m ρ c)
theorem w3_arg9 : W3 m ρ c (Proc.devRef .tc main_arg9) = A m c main_arg9 := (Stretch.s1_arg9 (W2 m ρ c)).trans (w2_arg9 m ρ c)
theorem w3_arg10 : W3 m ρ c (Proc.devRef .tc main_arg10) = A m c main_arg10 := (Stretch.s1_arg10 (W2 m ρ c)).trans (w2_arg10 m ρ c)
theorem w3_arg11 : W3 m ρ c (Proc.devRef .tc main_arg11) = A m c main_arg11 := (Stretch.s1_arg11 (W2 m ρ c)).trans (w2_arg11 m ρ c)
theorem w3_arg12 : W3 m ρ c (Proc.devRef .tc main_arg12) = A m c main_arg12 := (Stretch.s1_arg12 (W2 m ρ c)).trans (w2_arg12 m ρ c)
theorem w3_arg13 : W3 m ρ c (Proc.devRef .tc main_arg13) = A m c main_arg13 := (Stretch.s1_arg13 (W2 m ρ c)).trans (w2_arg13 m ρ c)

/-! ## Leaving the second call -/

/-- The second call's output is the reference's first graph layer. -/
theorem w4_v26 : W4 m ρ c (Proc.devRef .tc main_v26)
    = Cert.ReferenceIdeal.Read.val_main_v36 (F := Ideal) (A m c main_arg1) (A m c main_arg2) (A m c main_arg6) (A m c main_arg7) (A m c main_arg8) := by
  refine (W4_arr m ρ c 5).trans ((Layer1.final (V3 m ρ) c).trans ?_)
  show Layer1.sageRelu (W3 m ρ c (Proc.devRef .tc main_v24)) (W3 m ρ c (Proc.devRef .tc main_arg1)) (W3 m ρ c (Proc.devRef .tc main_arg6))
      (W3 m ρ c (Proc.devRef .tc main_arg7)) (W3 m ρ c (Proc.devRef .tc main_v25)) = _
  rw [w3_v24, w3_arg1, w3_arg6, w3_arg7]
  exact Cert.ReferenceIdeal.Bridge.layer1_eq _ _ _ _ _ _ (w3_bias m ρ c)

theorem w4_v1 : W4 m ρ c (Proc.devRef .tc main_v1)
    = Cert.ReferenceIdeal.Read.val_main_v4 (F := Ideal) (A m c main_arg0) (A m c main_arg4) (A m c main_arg5) := (W4_of_ne m ρ c main_v1 (by decide)).trans (w3_v1 m ρ c)
theorem w4_v3 : W4 m ρ c (Proc.devRef .tc main_v3) = Cert.ReferenceIdeal.Read.val_main_v6 (F := Ideal) (A m c main_arg2) := (W4_of_ne m ρ c main_v3 (by decide)).trans (w3_v3 m ρ c)
theorem w4_v5 : W4 m ρ c (Proc.devRef .tc main_v5) = Cert.ReferenceIdeal.Read.val_main_v8 (F := Ideal) (A m c main_arg2) := (W4_of_ne m ρ c main_v5 (by decide)).trans (w3_v5 m ρ c)
theorem w4_arg3 : W4 m ρ c (Proc.devRef .tc main_arg3) = A m c main_arg3 := (W4_of_ne m ρ c main_arg3 (by decide)).trans (w3_arg3 m ρ c)
theorem w4_arg9 : W4 m ρ c (Proc.devRef .tc main_arg9) = A m c main_arg9 := (W4_of_ne m ρ c main_arg9 (by decide)).trans (w3_arg9 m ρ c)
theorem w4_arg10 : W4 m ρ c (Proc.devRef .tc main_arg10) = A m c main_arg10 := (W4_of_ne m ρ c main_arg10 (by decide)).trans (w3_arg10 m ρ c)
theorem w4_arg11 : W4 m ρ c (Proc.devRef .tc main_arg11) = A m c main_arg11 := (W4_of_ne m ρ c main_arg11 (by decide)).trans (w3_arg11 m ρ c)
theorem w4_arg12 : W4 m ρ c (Proc.devRef .tc main_arg12) = A m c main_arg12 := (W4_of_ne m ρ c main_arg12 (by decide)).trans (w3_arg12 m ρ c)
theorem w4_arg13 : W4 m ρ c (Proc.devRef .tc main_arg13) = A m c main_arg13 := (W4_of_ne m ρ c main_arg13 (by decide)).trans (w3_arg13 m ρ c)

/-! ## Entering the third call -/

theorem w5_v45 : W5 m ρ c (Proc.devRef .tc main_v45)
    = Cert.ReferenceIdeal.Read.val_main_v55 (F := Ideal) (A m c main_arg1) (A m c main_arg2) (A m c main_arg6) (A m c main_arg7) (A m c main_arg8) :=
  Stretch.s2_mean (W4 m ρ c) _ _ _ _ _ (w4_v26 m ρ c) (w4_v3 m ρ c) (w4_v5 m ρ c)
theorem w5_bias (q : Fin 16) : (W5 m ρ c (Proc.devRef .tc main_v46) : FVec Ideal S1x16 .f32) (ix2 (0 : Fin 1) q)
    = (A m c main_arg11 : FVec Ideal S16 .f32) (ix1 q) :=
  (Stretch.s2_bias (W4 m ρ c) q).trans (congrFun (w4_arg11 m ρ c) (ix1 q))
theorem w5_v26 : W5 m ρ c (Proc.devRef .tc main_v26)
    = Cert.ReferenceIdeal.Read.val_main_v36 (F := Ideal) (A m c main_arg1) (A m c main_arg2) (A m c main_arg6) (A m c main_arg7) (A m c main_arg8) :=
  (Stretch.s2_v26 (W4 m ρ c)).trans (w4_v26 m ρ c)
theorem w5_v1 : W5 m ρ c (Proc.devRef .tc main_v1)
    = Cert.ReferenceIdeal.Read.val_main_v4 (F := Ideal) (A m c main_arg0) (A m c main_arg4) (A m c main_arg5) := (Stretch.s2_v1 (W4 m ρ c)).trans (w4_v1 m ρ c)
theorem w5_arg3 : W5 m ρ c (Proc.devRef .tc main_arg3) = A m c main_arg3 := (Stretch.s2_arg3 (W4 m ρ c)).trans (w4_arg3 m ρ c)
theorem w5_arg9 : W5 m ρ c (Proc.devRef .tc main_arg9) = A m c main_arg9 := (Stretch.s2_arg9 (W4 m ρ c)).trans (w4_arg9 m ρ c)
theorem w5_arg10 : W5 m ρ c (Proc.devRef .tc main_arg10) = A m c main_arg10 := (Stretch.s2_arg10 (W4 m ρ c)).trans (w4_arg10 m ρ c)
theorem w5_arg12 : W5 m ρ c (Proc.devRef .tc main_arg12) = A m c main_arg12 := (Stretch.s2_arg12 (W4 m ρ c)).trans (w4_arg12 m ρ c)
theorem w5_arg13 : W5 m ρ c (Proc.devRef .tc main_arg13) = A m c main_arg13 := (Stretch.s2_arg13 (W4 m ρ c)).trans (w4_arg13 m ρ c)

/-! ## Leaving the third call -/

/-- The third call's output is the reference's second graph layer. -/
theorem w6_v47 : W6 m ρ c (Proc.devRef .tc main_v47)
    = Cert.ReferenceIdeal.Read.val_main_v63 (F := Ideal) (A m c main_arg1) (A m c main_arg2) (A m c main_arg6) (A m c main_arg7) (A m c main_arg8)
        (A m c main_arg9) (A m c main_arg10) (A m c main_arg11) := by
  refine (W6_arr m ρ c 5).trans ((Layer2.final (V5 m ρ) c).trans ?_)
  show Layer2.sageLin (W5 m ρ c (Proc.devRef .tc main_v45)) (W5 m ρ c (Proc.devRef .tc main_v26)) (W5 m ρ c (Proc.devRef .tc main_arg9))
      (W5 m ρ c (Proc.devRef .tc main_arg10)) (W5 m ρ c (Proc.devRef .tc main_v46)) = _
  rw [w5_v45, w5_v26, w5_arg9, w5_arg10]
  exact Cert.ReferenceIdeal.Bridge.layer2_eq _ _ _ _ _ _ _ _ _ (w5_bias m ρ c)

theorem w6_v1 : W6 m ρ c (Proc.devRef .tc main_v1)
    = Cert.ReferenceIdeal.Read.val_main_v4 (F := Ideal) (A m c main_arg0) (A m c main_arg4) (A m c main_arg5) := (W6_of_ne m ρ c main_v1 (by decide)).trans (w5_v1 m ρ c)
theorem w6_arg3 : W6 m ρ c (Proc.devRef .tc main_arg3) = A m c main_arg3 := (W6_of_ne m ρ c main_arg3 (by decide)).trans (w5_arg3 m ρ c)
theorem w6_arg12 : W6 m ρ c (Proc.devRef .tc main_arg12) = A m c main_arg12 := (W6_of_ne m ρ c main_arg12 (by decide)).trans (w5_arg12 m ρ c)
theorem w6_arg13 : W6 m ρ c (Proc.devRef .tc main_arg13) = A m c main_arg13 := (W6_of_ne m ρ c main_arg13 (by decide)).trans (w5_arg13 m ρ c)

/-! ## The result -/

/-- After the last host stretch the result buffer holds the reference's term of the fourteen launch arguments. -/
theorem w7_out : W7 m ρ c (Proc.devRef .tc main_v65)
    = Cert.ReferenceIdeal.Read.val_main_v81 (F := Ideal) (A m c main_arg0) (A m c main_arg1) (A m c main_arg2) (A m c main_arg3) (A m c main_arg4)
        (A m c main_arg5) (A m c main_arg6) (A m c main_arg7) (A m c main_arg8) (A m c main_arg9) (A m c main_arg10)
        (A m c main_arg11) (A m c main_arg12) (A m c main_arg13) :=
  Stretch.s3_out (W6 m ρ c) _ _ _ _ _ _ _ _ _ _ _ _ _ _ (w6_v1 m ρ c) (w6_v47 m ρ c) (w6_arg3 m ρ c) (w6_arg12 m ρ c) (w6_arg13 m ρ c)

end Cert.KernelIdeal.Chain

end
-- ==== Proof.lean ====
/-
  A two-layer GraphSAGE encoder beside a linear map of sentence features: the Pallas program against its jnp reference,
  over the extended reals.

  Both programs compute, from the same fourteen arrays,
    last   = bert · W_adaptᵀ + b_adapt                                   [64, 64]
    h      = max(mean_nb(x) · W1lᵀ + x · W1rᵀ + b1, 0)                    [100000, 64]
    h2     = mean_nb(h) · W2lᵀ + h · W2rᵀ + b2                           [100000, 16]
    emb    = graph_mean(h2) · Wmᵀ + bm                                   [64, 16]
    result = last ‖ emb                                                  [64, 80]
  where mean_nb gathers the source rows of the 600000 edges, adds them into their destination rows and divides by the
  in-degree clamped below at 1, and graph_mean does the same over the batch ids. The Pallas program runs the three
  dense combines (last, h, h2) as pallas_calls — h and h2 in ten row blocks of 10000 nodes — and everything else as
  the same host operations as the reference. A row of a combine depends only on the same row of its inputs, so each
  blocked call computes the reference's whole-array stage; the host operations are shared term for term. No law of
  arithmetic beyond "a matrix product's entry is an inner product" is used, so the inputs' finiteness is never opened.

  The idealization rewrote nothing, so the two printed kernels have the same text and `preserves` is trivial; the three
  frames are the generated frame certificates and the reference's generated run.
-/
import proofs.«155568_j3470333575208_1_alg».proof.Defs
import proofs.«155568_j3470333575208_1_alg».proof.Proof.Gen.Kernel
import proofs.«155568_j3470333575208_1_alg».proof.Proof.Gen.Kernel.Skeleton
import proofs.«155568_j3470333575208_1_alg».proof.Proof.Gen.Kernel.Launch
import proofs.«155568_j3470333575208_1_alg».proof.Proof.Gen.Kernel.Points
import proofs.«155568_j3470333575208_1_alg».proof.Proof.Gen.Kernel.Frame
import proofs.«155568_j3470333575208_1_alg».proof.Proof.Gen.KernelIdeal
import proofs.«155568_j3470333575208_1_alg».proof.Proof.Gen.KernelIdeal.Skeleton
import proofs.«155568_j3470333575208_1_alg».proof.Proof.Gen.KernelIdeal.Launch
import proofs.«155568_j3470333575208_1_alg».proof.Proof.Gen.KernelIdeal.Points
import proofs.«155568_j3470333575208_1_alg».proof.Proof.Gen.KernelIdeal.Frame
import proofs.«155568_j3470333575208_1_alg».proof.Proof.Gen.ReferenceIdeal
import proofs.«155568_j3470333575208_1_alg».proof.Proof.Gen.ReferenceIdeal.Run
import proofs.«155568_j3470333575208_1_alg».proof.Proof.Gen.ReferenceIdeal.Read
import proofs.«155568_j3470333575208_1_alg».proof.Proof.Gen.Pre_finite_inputs
import proofs.«155568_j3470333575208_1_alg».proof.Proof.KRun
import proofs.«155568_j3470333575208_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the reference's term of the arguments: the kernel program's by the walk
    through its seven segments, the reference's by its run; the arguments agree, so the terms are one. -/
theorem algebraic : Cert.algebraic_KernelIdeal_ReferenceIdeal := by
  intro m ρ m' ρ' _ hagree
  refine ⟨fun c => Cert.KernelIdeal.Gen.W7 m ρ c (Proc.devRef .tc Cert.KernelIdeal.main_v65), Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v81_eq m' c).trans ?_
  refine Eq.trans ?_ (Cert.KernelIdeal.Chain.w7_out m ρ c).symm
  obtain ⟨e0, e1, e2, e3, e4, e5, e6, e7, e8, e9, e10, e11, e12, e13⟩ := hagree c
  rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
